-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 37
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1024.size a ≤ S1x1024.size a
  hwx0_18 : ∀ i : grid0.Coords, EltTy.bits .f32 = 32 ∨ (Rect.block (s := S1x1024) S1x1024.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x1024.size a ≤ S4096x1024.size a
  hwx0_19 : ∀ i : grid0.Coords, EltTy.bits .f32 = 32 ∨ (Rect.block (s := S4096x1024) S256x1024.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S256x1024.size a ≤ S4096x1024.size a
  hwx0_20 : ∀ i : grid0.Coords, EltTy.bits .f32 = 32 ∨ (Rect.block (s := S4096x1024) S256x1024.size (cc0_transform_20 i) (hinb0_20 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v14) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v15) S1x1024.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v16_0) S256x1024.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v16_1) S256x1024.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S1024x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1024x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S1024x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S1024x1024, .f32⟩
  | .hbm, ⟨63, _⟩ => ⟨S4096x1024, .f32⟩
  | .hbm, ⟨64, _⟩ => ⟨S4096x1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S1024x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S1024x1024, .f32⟩
  | .hbm, ⟨75, _⟩ => ⟨S4096x1024, .f32⟩
  | .hbm, ⟨76, _⟩ => ⟨S4096x1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_3 : Ref sig .tc := ⟨.hbm, 82, rfl⟩
abbrev main_v59 : Ref sig .tc := ⟨.hbm, 83, rfl⟩
abbrev main_v60 : Ref sig .tc := ⟨.hbm, 84, rfl⟩
abbrev main_cst_4 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.LibProductNT.lean ====
/-
  A matrix product with a TRANSPOSED weight, read at an entry, on the extended reals.

  For `x` of shape `[R, K]` and `w` of shape `[N, K]`, the product `x · wᵀ` accumulated into zero has the entry
  `(r, n)` equal to `∑ₖ x(r, k) · w(n, k)`: the contraction runs over the SECOND axis of both operands, so no transpose
  of `w` is ever formed. The lemma is stated for any two-axis dot record whose contraction has one axis of extent `K`
  and whose operand indices at output `(r, n)` and contraction position `k` are `(r, k)` on the left and `(n, k)` on the
  right — four hypotheses, so that it applies to a printed record of any extents.
-/
import Idealize.ShloMosaic.PureOps.Ideal.Laws
import Idealize.ShloMosaic.Lib.ValueIdx

noncomputable section

open scoped BigOperators

namespace Cert.LibProductNT

open Idealize.ShloMosaic Idealize.ShloMosaic.ValueIdx

/-- Entry `(r, n)` of `x · wᵀ` accumulated into the zero array is `∑ₖ x(r, k) · w(n, k)`. -/
theorem matmulNT_apply {R K N : ℕ} {φ₁ φ₂ : FTy} (d : DotDims ⟨2, ![R, K]⟩ ⟨2, ![N, K]⟩ ⟨2, ![R, N]⟩)
    (hrank : d.contr.rank = 1) (hsize : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (j 1).val)
    (hr1 : ∀ (j : (⟨2, ![R, N]⟩ : Shape).Idx) (q : d.contr.Idx), (d.rhsIdx j q 1).val = (q ⟨0, by omega⟩).val)
    (x : FVec Ideal ⟨2, ![R, K]⟩ φ₁) (w : FVec Ideal ⟨2, ![N, K]⟩ φ₂) (r : Fin R) (n : Fin N) :
    matmul d none x w (constant (F := Ideal) ⟨2, ![R, N]⟩ .f32 0x00000000#32) (ix2 r n)
      = ∑ k : Fin K, (x (ix2 r k) : EReal) * (w (ix2 n k) : EReal) := by
  show FloatOps.matmul d none x w (constant (F := Ideal) ⟨2, ![R, N]⟩ .f32 0x00000000#32) (ix2 r n) = _
  rw [Ideal.matmul_constant_zero_apply, ← Equiv.sum_comp (contrEquiv1 d K hrank hsize).symm]
  refine Finset.sum_congr rfl fun k _ => ?_
  have hk := contrEquiv1_symm_val d K hrank hsize k
  have el : d.lhsIdx (ix2 r n) ((contrEquiv1 d K hrank hsize).symm k) = ix2 r k := funext fun a => Fin.ext (by
    match a with
    | ⟨0, _⟩ => exact hl0 _ _
    | ⟨1, _⟩ => exact (hl1 _ _).trans hk)
  have er : d.rhsIdx (ix2 r n) ((contrEquiv1 d K hrank hsize).symm k) = ix2 n k := funext fun a => Fin.ext (by
    match a with
    | ⟨0, _⟩ => exact hr0 _ _
    | ⟨1, _⟩ => exact (hr1 _ _).trans hk)
  rw [el, er]

end Cert.LibProductNT

end
-- ==== Proof.LstmSpec.lean ====
/-
  One step of an LSTM cell, on the extended reals.

  For a batch row `r` and a hidden unit `n`, each of the four gates (input, forget, cell, output) has the
  pre-activation
      pre(r, n) = ∑ₖ x(r,k)·Wx(n,k) + ∑ₖ h(r,k)·Wh(n,k) + bx(n) + bh(n),
  the input row and the hidden row each multiplied with the TRANSPOSE of that gate's weight matrix, plus the
  gate's two biases. With σ(z) = 1 / (1 + e^(−z)) the cell's new state and output are
      c'(r, n) = σ(pre_f)·c(r, n) + σ(pre_i)·tanh(pre_g),        h'(r, n) = σ(pre_o)·tanh(c'(r, n)).
  `newC` and `newH` are these two arrays as functions of the nineteen argument arrays, index by index.

  The four summands of a pre-activation may be added in any grouping: addition on the extended reals is commutative and
  associative (`−∞` absorbing), so no summand needs to be finite (`pre_regroup`). The logistic function is by
  definition the quotient `1 / (1 + e^(−z))` with the conventions of the extended reals at `±∞`, so a program that
  spells the quotient out computes the same number (`logistic_spelt`).
-/
import Idealize.ShloMosaic.PureOps.Ideal
import Idealize.ShloMosaic.Lib.ValueIdx

noncomputable section

open scoped BigOperators

namespace Cert.Lstm

open Idealize.ShloMosaic Idealize.ShloMosaic.ValueIdx

/-- An `[a, b]` array of extended reals. -/
abbrev Mat (a b : ℕ) : Type := (⟨2, ![a, b]⟩ : Shape).Idx → EReal

/-- An `[n]` array of extended reals. -/
abbrev Row (n : ℕ) : Type := (⟨1, ![n]⟩ : Shape).Idx → EReal

/-- A gate's pre-activation at batch row `r` and hidden unit `n`: the input row against row `n` of `Wx`, the hidden
    row against row `n` of `Wh`, and the two biases. -/
def pre {B K N : ℕ} (x : Mat B K) (h : Mat B N) (Wx : Mat N K) (Wh : Mat N N) (bx bh : Row N) (r : Fin B) (n : Fin N) : EReal :=
  (∑ k : Fin K, x (ix2 r k) * Wx (ix2 n k)) + (∑ k : Fin N, h (ix2 r k) * Wh (ix2 n k)) + bx (ix1 n) + bh (ix1 n)

/-- The same four summands with the input side's bias added before the hidden side's product. -/
theorem pre_regroup {B K N : ℕ} (x : Mat B K) (h : Mat B N) (Wx : Mat N K) (Wh : Mat N N) (bx bh : Row N) (r : Fin B) (n : Fin N) :
    (∑ k : Fin K, x (ix2 r k) * Wx (ix2 n k)) + bx (ix1 n) + (∑ k : Fin N, h (ix2 r k) * Wh (ix2 n k)) + bh (ix1 n)
      = pre x h Wx Wh bx bh r n := by
  unfold pre
  rw [add_right_comm (∑ k : Fin K, x (ix2 r k) * Wx (ix2 n k)) (bx (ix1 n))]

/-- The logistic function is the quotient it abbreviates. -/
theorem logistic_spelt (z : EReal) : Ideal.div 1 (1 + Ideal.exp (-z)) = Ideal.logistic z := rfl

/-- The new cell state from the three gates' pre-activations and the old state. -/
def cellC (pi pf pg c : EReal) : EReal := Ideal.logistic pf * c + Ideal.logistic pi * Ideal.tanh pg

/-- The new output from the output gate's pre-activation and the new cell state. -/
def cellH (po cn : EReal) : EReal := Ideal.logistic po * Ideal.tanh cn

/-- The new cell state as an array: at `(r, n)`, `σ(pre_f)·c + σ(pre_i)·tanh(pre_g)`. The arguments are in the
    programs' order: `x h c`, then weight and bias of the input, forget, cell and output gates on the input side,
    then the same on the hidden side. -/
def newC {B K N : ℕ} (x : Mat B K) (h c : Mat B N)
    (Wix : Mat N K) (bix : Row N) (Wfx : Mat N K) (bfx : Row N) (Wgx : Mat N K) (bgx : Row N) (Wox : Mat N K) (box : Row N)
    (Wih : Mat N N) (bih : Row N) (Wfh : Mat N N) (bfh : Row N) (Wgh : Mat N N) (bgh : Row N) (Woh : Mat N N) (boh : Row N) :
    Mat B N := fun i =>
  cellC (pre x h Wix Wih bix bih (i 0) (i 1)) (pre x h Wfx Wfh bfx bfh (i 0) (i 1)) (pre x h Wgx Wgh bgx bgh (i 0) (i 1)) (c i)

/-- The new output as an array: at `(r, n)`, `σ(pre_o)·tanh(c'(r, n))`. -/
def newH {B K N : ℕ} (x : Mat B K) (h c : Mat B N)
    (Wix : Mat N K) (bix : Row N) (Wfx : Mat N K) (bfx : Row N) (Wgx : Mat N K) (bgx : Row N) (Wox : Mat N K) (box : Row N)
    (Wih : Mat N N) (bih : Row N) (Wfh : Mat N N) (bfh : Row N) (Wgh : Mat N N) (bgh : Row N) (Woh : Mat N N) (boh : Row N) :
    Mat B N := fun i =>
  cellH (pre x h Wox Woh box boh (i 0) (i 1))
    (newC x h c Wix bix Wfx bfx Wgx bgx Wox box Wih bih Wfh bfh Wgh bgh Woh boh i)

end Cert.Lstm

end
-- ==== Proof.LstmKernelBlock.lean ====
/-
  The kernel body's arithmetic at one entry of a block, on the extended reals.

  At a grid point the body holds a block of 256 rows of `x`, `h` and `c`, the eight weight matrices whole and the
  eight biases as rows `[1, 1024]`. A gate's pre-activation on the block is
      preBlk(p, q) = ∑ₖ xb(p,k)·wx(q,k) + ∑ₖ hb(p,k)·wh(q,k) + bx(0,q) + bh(0,q):
  each matrix product contracts the second axis of both operands (a product with the transposed weight into a zero
  accumulator), the narrowing of `x`, `h` and the weights to a shorter float format is the identity on extended reals,
  and a bias row is repeated down the block's rows. The two stored values are then, entry by entry,
      c' = σ(pre_f)·c + σ(pre_i)·tanh(pre_g)   and   h' = σ(pre_o)·tanh(c'),
  `Cert.Lstm.cellC` and `Cert.Lstm.cellH` of the block's pre-activations (`c_block`, `h_block`).
-/
import proofs.«156983_j32598801776688_2_alg».proof.Proof.Gen.KernelIdeal.Skeleton
import proofs.«156983_j32598801776688_2_alg».proof.Proof.LibProductNT
import proofs.«156983_j32598801776688_2_alg».proof.Proof.LstmSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lstm.Blk

open Cert.KernelIdeal Cert.KernelIdeal.Gen Idealize.ShloMosaic Idealize.ShloMosaic.ValueIdx Cert.Lstm

/-! ## The product's index maps: left operand at `(p, k)`, right operand at `(q, k)` -/

theorem dot_l0 (j : S256x1024.Idx) (s : dot_S256x1024_S1024x1024_S256x1024_1_1_0_0_n_n.contr.Idx) :
    (dot_S256x1024_S1024x1024_S256x1024_1_1_0_0_n_n.lhsIdx j s 0).val = (j 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl

theorem dot_l1 (j : S256x1024.Idx) (s : dot_S256x1024_S1024x1024_S256x1024_1_1_0_0_n_n.contr.Idx) :
    (dot_S256x1024_S1024x1024_S256x1024_1_1_0_0_n_n.lhsIdx j s 1).val = (s ⟨0, by decide⟩).val :=
  dot_S256x1024_S1024x1024_S256x1024_1_1_0_0_n_n.lhsIdx_val_of_single rfl j s

theorem dot_r0 (j : S256x1024.Idx) (s : dot_S256x1024_S1024x1024_S256x1024_1_1_0_0_n_n.contr.Idx) :
    (dot_S256x1024_S1024x1024_S256x1024_1_1_0_0_n_n.rhsIdx j s 0).val = (j 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl

theorem dot_r1 (j : S256x1024.Idx) (s : dot_S256x1024_S1024x1024_S256x1024_1_1_0_0_n_n.contr.Idx) :
    (dot_S256x1024_S1024x1024_S256x1024_1_1_0_0_n_n.rhsIdx j s 1).val = (s ⟨0, by decide⟩).val :=
  dot_S256x1024_S1024x1024_S256x1024_1_1_0_0_n_n.rhsIdx_val_of_single rfl j s

/-- Entry `(p, q)` of a block product `xb · wᵀ` into zero: `∑ₖ xb(p,k)·w(q,k)`. -/
theorem product_apply (xb : FVec Ideal S256x1024 .bf16) (w : FVec Ideal S1024x1024 .bf16) (p : Fin 256) (q : Fin 1024) :
    matmul dot_S256x1024_S1024x1024_S256x1024_1_1_0_0_n_n none xb w (constant (F := Ideal) S256x1024 .f32 0x00000000#32) (ix2 p q)
      = ∑ k : Fin 1024, (xb (ix2 p k) : EReal) * (w (ix2 q k) : EReal) :=
  Cert.LibProductNT.matmulNT_apply (R := 256) (K := 1024) (N := 1024) dot_S256x1024_S1024x1024_S256x1024_1_1_0_0_n_n rfl rfl
    dot_l0 dot_l1 dot_r0 dot_r1 xb w p q

/-! ## One gate on a block -/

/-- A gate's pre-activation at entry `(p, q)` of a block: the block's rows of `x` and `h` against row `q` of the two
    weights, plus the two bias rows at `q`. -/
def preBlk (xb hb : S256x1024.Idx → EReal) (wx wh : S1024x1024.Idx → EReal) (bx bh : S1x1024.Idx → EReal)
    (p : Fin 256) (q : Fin 1024) : EReal :=
  (∑ k : Fin 1024, xb (ix2 p k) * wx (ix2 q k)) + (∑ k : Fin 1024, hb (ix2 p k) * wh (ix2 q k))
    + bx (ix2 (0 : Fin 1) q) + bh (ix2 (0 : Fin 1) q)

/-- The body's spelling of a gate — two products into zero, added, then each bias row repeated down the rows and
    added — read at `(p, q)`. -/
theorem gate_apply (xb hb : FVec Ideal S256x1024 .bf16) (wx wh : FVec Ideal S1024x1024 .bf16) (bx bh : FVec Ideal S1x1024 .f32)
    (hw : S1024x1024.ShapeCasts S1024x1024) (hb1 : S1x1024.ShapeCasts S1x1024) (hbc : S1x1024.Broadcasts S256x1024)
    (p : Fin 256) (q : Fin 1024) :
    addf (addf (addf
        (matmul dot_S256x1024_S1024x1024_S256x1024_1_1_0_0_n_n none xb (shapeCast S1024x1024 wx hw) (constant (F := Ideal) S256x1024 .f32 0x00000000#32))
        (matmul dot_S256x1024_S1024x1024_S256x1024_1_1_0_0_n_n none hb (shapeCast S1024x1024 wh hw) (constant (F := Ideal) S256x1024 .f32 0x00000000#32)))
        (broadcastTo S256x1024 (shapeCast S1x1024 bx hb1) hbc))
        (broadcastTo S256x1024 (shapeCast S1x1024 bh hb1) hbc) (ix2 p q)
      = preBlk xb hb wx wh bx bh p q := by
  rw [shapeCast_self wx hw, shapeCast_self wh hw, shapeCast_self bx hb1, shapeCast_self bh hb1]
  show matmul dot_S256x1024_S1024x1024_S256x1024_1_1_0_0_n_n none xb wx (constant (F := Ideal) S256x1024 .f32 0x00000000#32) (ix2 p q)
      + matmul dot_S256x1024_S1024x1024_S256x1024_1_1_0_0_n_n none hb wh (constant (F := Ideal) S256x1024 .f32 0x00000000#32) (ix2 p q)
      + broadcastTo S256x1024 bx hbc (ix2 p q) + broadcastTo S256x1024 bh hbc (ix2 p q) = _
  rw [product_apply xb wx p q, product_apply hb wh p q, broadcastTo_1b_ab_apply bx hbc p q, broadcastTo_1b_ab_apply bh hbc p q]
  rfl

/-- When the block's entries the gate reads at `(p, q)` are the arrays' entries at `(r, q)` — row `p` of the blocks of
    `x` and `h` is row `r` of the arrays, the weight blocks are the weights, the bias rows the biases — the block's
    pre-activation at `(p, q)` is the arrays' at `(r, q)`. -/
theorem preBlk_eq_pre (xb hb : S256x1024.Idx → EReal) (wx wh : S1024x1024.Idx → EReal) (bx bh : S1x1024.Idx → EReal)
    (X H : Mat 4096 1024) (Wx Wh : Mat 1024 1024) (Bx Bh : Row 1024) (r : Fin 4096) (p : Fin 256) (q : Fin 1024)
    (hx : ∀ k : Fin 1024, xb (ix2 p k) = X (ix2 r k)) (hh : ∀ k : Fin 1024, hb (ix2 p k) = H (ix2 r k))
    (hwx : ∀ k : Fin 1024, wx (ix2 q k) = Wx (ix2 q k)) (hwh : ∀ k : Fin 1024, wh (ix2 q k) = Wh (ix2 q k))
    (hbx : bx (ix2 (0 : Fin 1) q) = Bx (ix1 q)) (hbh : bh (ix2 (0 : Fin 1) q) = Bh (ix1 q)) :
    preBlk xb hb wx wh bx bh p q = pre X H Wx Wh Bx Bh r q := by
  unfold preBlk pre
  rw [hbx, hbh]
  simp only [hx, hh, hwx, hwh]

/-! ## The payloads at an entry -/

/-- The forget gate's pre-activation as the body computes it. -/
theorem pay5_apply (v0 v2 : Vec Ideal S256x1024 .f32) (v20 v23 : Vec Ideal S1024x1024 .bf16) (v27 v31 : Vec Ideal S1x1024 .f32)
    (p : Fin 256) (q : Fin 1024) :
    k0_pay5 (F := Ideal) v0 v2 v20 v23 v27 v31 (ix2 p q) = preBlk v0 v2 v20 v23 v27 v31 p q :=
  gate_apply (k0_pay2 v0) (k0_pay3 v2) v20 v23 v27 v31 _ _ _ p q

/-- The input gate: the logistic function of its pre-activation. -/
theorem pay4_apply (v0 v2 : Vec Ideal S256x1024 .f32) (v4 v7 : Vec Ideal S1024x1024 .bf16) (v11 v15 : Vec Ideal S1x1024 .f32)
    (p : Fin 256) (q : Fin 1024) :
    k0_pay4 (F := Ideal) v0 v2 v4 v7 v11 v15 (ix2 p q) = Ideal.logistic (preBlk v0 v2 v4 v7 v11 v15 p q) :=
  congrArg Ideal.logistic (gate_apply (k0_pay2 v0) (k0_pay3 v2) v4 v7 v11 v15 _ _ _ p q)

/-- The output gate, from the already narrowed `x` and `h`. -/
theorem pay6_apply (v1 v3 : FVec Ideal S256x1024 .bf16) (v52 v55 : Vec Ideal S1024x1024 .bf16) (v59 v63 : Vec Ideal S1x1024 .f32)
    (p : Fin 256) (q : Fin 1024) :
    k0_pay6 (F := Ideal) v1 v3 v52 v55 v59 v63 (ix2 p q) = Ideal.logistic (preBlk v1 v3 v52 v55 v59 v63 p q) :=
  congrArg Ideal.logistic (gate_apply v1 v3 v52 v55 v59 v63 _ _ _ p q)

/-- The new cell state from the input gate `v19`, the forget gate's pre-activation `v34` and the old state `v68`. -/
theorem pay7_apply (v1 v3 : FVec Ideal S256x1024 .bf16) (v19 v34 : FVec Ideal S256x1024 .f32) (v36 v39 : Vec Ideal S1024x1024 .bf16)
    (v43 v47 : Vec Ideal S1x1024 .f32) (v68 : Vec Ideal S256x1024 .f32) (p : Fin 256) (q : Fin 1024) :
    k0_pay7 (F := Ideal) v1 v3 v19 v34 v36 v39 v43 v47 v68 (ix2 p q)
      = Ideal.logistic (v34 (ix2 p q)) * v68 (ix2 p q) + v19 (ix2 p q) * Ideal.tanh (preBlk v1 v3 v36 v39 v43 v47 p q) :=
  congrArg (fun z => Ideal.logistic (v34 (ix2 p q)) * v68 (ix2 p q) + v19 (ix2 p q) * Ideal.tanh z)
    (gate_apply v1 v3 v36 v39 v43 v47 _ _ _ p q)

/-- What the body stores as the new cell state, at entry `(p, q)` of the block, from the nineteen loaded blocks. -/
theorem c_block (x0 x1 x2 : Vec Ideal S256x1024 .f32) (x3 x4 x5 x6 x7 x8 x9 x10 : Vec Ideal S1024x1024 .bf16)
    (x11 x12 x13 x14 x15 x16 x17 x18 : Vec Ideal S1x1024 .f32) (p : Fin 256) (q : Fin 1024) :
    k0_pay7 (F := Ideal) (k0_pay2 x0) (k0_pay3 x1) (k0_pay4 x0 x1 x3 x7 x11 x15) (k0_pay5 x0 x1 x4 x8 x12 x16) x5 x9 x13 x17 x2 (ix2 p q)
      = cellC (preBlk x0 x1 x3 x7 x11 x15 p q) (preBlk x0 x1 x4 x8 x12 x16 p q) (preBlk x0 x1 x5 x9 x13 x17 p q) (x2 (ix2 p q)) := by
  rw [pay7_apply, pay4_apply, pay5_apply]
  rfl

/-- What the body stores as the new output, at entry `(p, q)` of the block. -/
theorem h_block (x0 x1 x2 : Vec Ideal S256x1024 .f32) (x3 x4 x5 x6 x7 x8 x9 x10 : Vec Ideal S1024x1024 .bf16)
    (x11 x12 x13 x14 x15 x16 x17 x18 : Vec Ideal S1x1024 .f32) (p : Fin 256) (q : Fin 1024) :
    k0_pay1 (F := Ideal) (k0_pay6 (k0_pay2 x0) (k0_pay3 x1) x6 x10 x14 x18)
        (k0_pay8 (k0_pay2 x0) (k0_pay3 x1) (k0_pay4 x0 x1 x3 x7 x11 x15) (k0_pay5 x0 x1 x4 x8 x12 x16) x5 x9 x13 x17 x2) (ix2 p q)
      = cellH (preBlk x0 x1 x6 x10 x14 x18 p q)
          (cellC (preBlk x0 x1 x3 x7 x11 x15 p q) (preBlk x0 x1 x4 x8 x12 x16 p q) (preBlk x0 x1 x5 x9 x13 x17 p q) (x2 (ix2 p q))) := by
  show k0_pay6 (F := Ideal) (k0_pay2 x0) (k0_pay3 x1) x6 x10 x14 x18 (ix2 p q)
      * Ideal.tanh (k0_pay7 (F := Ideal) (k0_pay2 x0) (k0_pay3 x1) (k0_pay4 x0 x1 x3 x7 x11 x15) (k0_pay5 x0 x1 x4 x8 x12 x16) x5 x9 x13 x17 x2 (ix2 p q)) = _
  rw [pay6_apply, c_block x0 x1 x2 x3 x4 x5 x6 x7 x8 x9 x10 x11 x12 x13 x14 x15 x16 x17 x18 p q]
  rfl

end Cert.Lstm.Blk

end
-- ==== Proof.LstmWindows.lean ====
/-
  Where the kernel's blocks sit in the argument arrays.

  The grid has 16 points. At point `t` the blocks of `x`, `h`, `c` and of the two results are rows `256·t … 256·t + 255`
  of their arrays (all 1024 columns), so entry `(p, k)` of such a block is entry `(256·t + p, k)` of the array; the
  eight weight blocks and the eight bias blocks are their whole arrays at every point.

  The weight arrays the kernel stages are the arguments narrowed to a shorter float format, which on extended reals is
  the identity; the bias arrays it stages are the arguments recast from `[1024]` to one row `[1, 1024]`, whose entry
  `(0, q)` is the argument's entry `q`. So every block entry the body reads is an entry of an ARGUMENT array.
-/
import proofs.«156983_j32598801776688_2_alg».proof.Proof.Gen.KernelIdeal.Frame
import Idealize.ShloMosaic.Lib.ValueIdx
import Idealize.ShloMosaic.Lib.ValueLayout
import Idealize.ShloMosaic.Lib.StableHlo.Run

noncomputable section

namespace Cert.Lstm.Win

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The arrays the host wrote before the launch -/

/-- Window 3's array is argument `main_arg3` narrowed, that is, itself. -/
theorem V_main_v0 (c : Dev nD) : (V m c main_v0 : S1024x1024.Idx → EReal) = m ((c : Thread nD τ).loc main_arg3) := by
  dsimp only [V, hostOps0]
  after_results
  rfl

/-- Window 4's array is argument `main_arg5` narrowed, that is, itself. -/
theorem V_main_v1 (c : Dev nD) : (V m c main_v1 : S1024x1024.Idx → EReal) = m ((c : Thread nD τ).loc main_arg5) := by
  dsimp only [V, hostOps0]
  after_results
  rfl

/-- Window 5's array is argument `main_arg7` narrowed, that is, itself. -/
theorem V_main_v2 (c : Dev nD) : (V m c main_v2 : S1024x1024.Idx → EReal) = m ((c : Thread nD τ).loc main_arg7) := by
  dsimp only [V, hostOps0]
  after_results
  rfl

/-- Window 6's array is argument `main_arg9` narrowed, that is, itself. -/
theorem V_main_v3 (c : Dev nD) : (V m c main_v3 : S1024x1024.Idx → EReal) = m ((c : Thread nD τ).loc main_arg9) := by
  dsimp only [V, hostOps0]
  after_results
  rfl

/-- Window 7's array is argument `main_arg11` narrowed, that is, itself. -/
theorem V_main_v4 (c : Dev nD) : (V m c main_v4 : S1024x1024.Idx → EReal) = m ((c : Thread nD τ).loc main_arg11) := by
  dsimp only [V, hostOps0]
  after_results
  rfl

/-- Window 8's array is argument `main_arg13` narrowed, that is, itself. -/
theorem V_main_v5 (c : Dev nD) : (V m c main_v5 : S1024x1024.Idx → EReal) = m ((c : Thread nD τ).loc main_arg13) := by
  dsimp only [V, hostOps0]
  after_results
  rfl

/-- Window 9's array is argument `main_arg15` narrowed, that is, itself. -/
theorem V_main_v6 (c : Dev nD) : (V m c main_v6 : S1024x1024.Idx → EReal) = m ((c : Thread nD τ).loc main_arg15) := by
  dsimp only [V, hostOps0]
  after_results
  rfl

/-- Window 10's array is argument `main_arg17` narrowed, that is, itself. -/
theorem V_main_v7 (c : Dev nD) : (V m c main_v7 : S1024x1024.Idx → EReal) = m ((c : Thread nD τ).loc main_arg17) := by
  dsimp only [V, hostOps0]
  after_results
  rfl

/-- Window 11's array is argument `main_arg4` as one row: its entry `(0, q)` is the argument's entry `q`. -/
theorem V_main_v8 (c : Dev nD) (q : Fin 1024) :
    (V m c main_v8 : S1x1024.Idx → EReal) (ix2 (0 : Fin 1) q) = m ((c : Thread nD τ).loc main_arg4) (ix1 q) := by
  have e : (V m c main_v8 : S1x1024.Idx → EReal) = shapeCast S1x1024 (m ((c : Thread nD τ).loc main_arg4)) shapeCasts_S1024_S1x1024 := by
    dsimp only [V, hostOps0]
    after_results
    rfl
  rw [e]
  exact shapeCast_a_1a_apply _ _ 0 q

/-- Window 12's array is argument `main_arg6` as one row: its entry `(0, q)` is the argument's entry `q`. -/
theorem V_main_v9 (c : Dev nD) (q : Fin 1024) :
    (V m c main_v9 : S1x1024.Idx → EReal) (ix2 (0 : Fin 1) q) = m ((c : Thread nD τ).loc main_arg6) (ix1 q) := by
  have e : (V m c main_v9 : S1x1024.Idx → EReal) = shapeCast S1x1024 (m ((c : Thread nD τ).loc main_arg6)) shapeCasts_S1024_S1x1024 := by
    dsimp only [V, hostOps0]
    after_results
    rfl
  rw [e]
  exact shapeCast_a_1a_apply _ _ 0 q

/-- Window 13's array is argument `main_arg8` as one row: its entry `(0, q)` is the argument's entry `q`. -/
theorem V_main_v10 (c : Dev nD) (q : Fin 1024) :
    (V m c main_v10 : S1x1024.Idx → EReal) (ix2 (0 : Fin 1) q) = m ((c : Thread nD τ).loc main_arg8) (ix1 q) := by
  have e : (V m c main_v10 : S1x1024.Idx → EReal) = shapeCast S1x1024 (m ((c : Thread nD τ).loc main_arg8)) shapeCasts_S1024_S1x1024 := by
    dsimp only [V, hostOps0]
    after_results
    rfl
  rw [e]
  exact shapeCast_a_1a_apply _ _ 0 q

/-- Window 14's array is argument `main_arg10` as one row: its entry `(0, q)` is the argument's entry `q`. -/
theorem V_main_v11 (c : Dev nD) (q : Fin 1024) :
    (V m c main_v11 : S1x1024.Idx → EReal) (ix2 (0 : Fin 1) q) = m ((c : Thread nD τ).loc main_arg10) (ix1 q) := by
  have e : (V m c main_v11 : S1x1024.Idx → EReal) = shapeCast S1x1024 (m ((c : Thread nD τ).loc main_arg10)) shapeCasts_S1024_S1x1024 := by
    dsimp only [V, hostOps0]
    after_results
    rfl
  rw [e]
  exact shapeCast_a_1a_apply _ _ 0 q

/-- Window 15's array is argument `main_arg12` as one row: its entry `(0, q)` is the argument's entry `q`. -/
theorem V_main_v12 (c : Dev nD) (q : Fin 1024) :
    (V m c main_v12 : S1x1024.Idx → EReal) (ix2 (0 : Fin 1) q) = m ((c : Thread nD τ).loc main_arg12) (ix1 q) := by
  have e : (V m c main_v12 : S1x1024.Idx → EReal) = shapeCast S1x1024 (m ((c : Thread nD τ).loc main_arg12)) shapeCasts_S1024_S1x1024 := by
    dsimp only [V, hostOps0]
    after_results
    rfl
  rw [e]
  exact shapeCast_a_1a_apply _ _ 0 q

/-- Window 16's array is argument `main_arg14` as one row: its entry `(0, q)` is the argument's entry `q`. -/
theorem V_main_v13 (c : Dev nD) (q : Fin 1024) :
    (V m c main_v13 : S1x1024.Idx → EReal) (ix2 (0 : Fin 1) q) = m ((c : Thread nD τ).loc main_arg14) (ix1 q) := by
  have e : (V m c main_v13 : S1x1024.Idx → EReal) = shapeCast S1x1024 (m ((c : Thread nD τ).loc main_arg14)) shapeCasts_S1024_S1x1024 := by
    dsimp only [V, hostOps0]
    after_results
    rfl
  rw [e]
  exact shapeCast_a_1a_apply _ _ 0 q

/-- Window 17's array is argument `main_arg16` as one row: its entry `(0, q)` is the argument's entry `q`. -/
theorem V_main_v14 (c : Dev nD) (q : Fin 1024) :
    (V m c main_v14 : S1x1024.Idx → EReal) (ix2 (0 : Fin 1) q) = m ((c : Thread nD τ).loc main_arg16) (ix1 q) := by
  have e : (V m c main_v14 : S1x1024.Idx → EReal) = shapeCast S1x1024 (m ((c : Thread nD τ).loc main_arg16)) shapeCasts_S1024_S1x1024 := by
    dsimp only [V, hostOps0]
    after_results
    rfl
  rw [e]
  exact shapeCast_a_1a_apply _ _ 0 q

/-- Window 18's array is argument `main_arg18` as one row: its entry `(0, q)` is the argument's entry `q`. -/
theorem V_main_v15 (c : Dev nD) (q : Fin 1024) :
    (V m c main_v15 : S1x1024.Idx → EReal) (ix2 (0 : Fin 1) q) = m ((c : Thread nD τ).loc main_arg18) (ix1 q) := by
  have e : (V m c main_v15 : S1x1024.Idx → EReal) = shapeCast S1x1024 (m ((c : Thread nD τ).loc main_arg18)) shapeCasts_S1024_S1x1024 := by
    dsimp only [V, hostOps0]
    after_results
    rfl
  rw [e]
  exact shapeCast_a_1a_apply _ _ 0 q

/-! ## The index maps, decided over the sixteen grid points -/

/-- The row-blocked windows (`x`, `h`, `c` and the two results) are at block row `t`, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_19.index t (0 : Fin 2) = t.val ∧ win0_19.index t (1 : Fin 2) = 0
    ∧ win0_20.index t (0 : Fin 2) = t.val ∧ win0_20.index t (1 : Fin 2) = 0 :=
  (by decide +kernel : ∀ t : Fin grid0.N, _)

/-- The weights' and biases' windows stay at block `(0, 0)`: the whole array. -/
theorem idx_fixed : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_18.index t (0 : Fin 2) = 0 ∧ win0_18.index t (1 : Fin 2) = 0 :=
  (by decide +kernel : ∀ t : Fin grid0.N, _)

/-- Row `p` of the block at point `t` is row `256·t + p` of the array. -/
def brow (t : Fin cfg0.N) (p : Fin 256) : Fin 4096 :=
  ⟨t.val * 256 + p.val, by have ht : t.val < 16 := lt_of_lt_of_eq t.isLt N_0; have := p.isLt; omega⟩

/-! ## Block entries as array entries -/

/-- Entry `(p, k)` of the block of `x` at point `t` is entry `(256·t + p, k)` of argument `main_arg0`. -/
theorem read_x (c : Dev nD) (t : Fin cfg0.N) (p : Fin 256) (k : Fin 1024) :
    iblk m c 0 t (ix2 p k : S256x1024.Idx) = m ((c : Thread nD τ).loc main_arg0) (ix2 (brow t p) k) := by
  rw [← V_main_arg0 m c]
  show V m c main_arg0 (((cfg0.win 0).blk t).view.emb (ix2 p k : S256x1024.Idx)) = V m c main_arg0 (ix2 (brow t p) k)
  refine congrArg (V m c main_arg0) ?_
  obtain ⟨e0, e1, -, -, -, -, -⟩ := idx_rows t
  funext a; apply Fin.ext
  match a with
  | ⟨0, _⟩ => show win0_0.index t (0 : Fin 2) * 256 + 1 * p.val = t.val * 256 + p.val; omega
  | ⟨1, _⟩ => show win0_0.index t (1 : Fin 2) * 1024 + 1 * k.val = k.val; omega

/-- Entry `(p, k)` of the block of `h` at point `t` is entry `(256·t + p, k)` of argument `main_arg1`. -/
theorem read_h (c : Dev nD) (t : Fin cfg0.N) (p : Fin 256) (k : Fin 1024) :
    iblk m c 1 t (ix2 p k : S256x1024.Idx) = m ((c : Thread nD τ).loc main_arg1) (ix2 (brow t p) k) := by
  rw [← V_main_arg1 m c]
  show V m c main_arg1 (((cfg0.win 1).blk t).view.emb (ix2 p k : S256x1024.Idx)) = V m c main_arg1 (ix2 (brow t p) k)
  refine congrArg (V m c main_arg1) ?_
  obtain ⟨-, -, e2, e3, -, -, -⟩ := idx_rows t
  funext a; apply Fin.ext
  match a with
  | ⟨0, _⟩ => show win0_1.index t (0 : Fin 2) * 256 + 1 * p.val = t.val * 256 + p.val; omega
  | ⟨1, _⟩ => show win0_1.index t (1 : Fin 2) * 1024 + 1 * k.val = k.val; omega

/-- Entry `(p, k)` of the block of `c` at point `t` is entry `(256·t + p, k)` of argument `main_arg2`. -/
theorem read_c (c : Dev nD) (t : Fin cfg0.N) (p : Fin 256) (k : Fin 1024) :
    iblk m c 2 t (ix2 p k : S256x1024.Idx) = m ((c : Thread nD τ).loc main_arg2) (ix2 (brow t p) k) := by
  rw [← V_main_arg2 m c]
  show V m c main_arg2 (((cfg0.win 2).blk t).view.emb (ix2 p k : S256x1024.Idx)) = V m c main_arg2 (ix2 (brow t p) k)
  refine congrArg (V m c main_arg2) ?_
  obtain ⟨-, -, -, -, e4, e5, -⟩ := idx_rows t
  funext a; apply Fin.ext
  match a with
  | ⟨0, _⟩ => show win0_2.index t (0 : Fin 2) * 256 + 1 * p.val = t.val * 256 + p.val; omega
  | ⟨1, _⟩ => show win0_2.index t (1 : Fin 2) * 1024 + 1 * k.val = k.val; omega

/-- Entry `(n, k)` of window 3's block is entry `(n, k)` of argument `main_arg3`. -/
theorem read_w3 (c : Dev nD) (t : Fin cfg0.N) (n k : Fin 1024) :
    iblk m c 3 t (ix2 n k : S1024x1024.Idx) = m ((c : Thread nD τ).loc main_arg3) (ix2 n k) := by
  rw [← V_main_v0 m c]
  show V m c main_v0 (((cfg0.win 3).blk t).view.emb (ix2 n k : S1024x1024.Idx)) = V m c main_v0 (ix2 n k)
  refine congrArg (V m c main_v0) ?_
  obtain ⟨f3a, f3b, -, -, -, -, -, -, -, -, -, -, -, -, -, -, -, -, -, -, -, -, -, -, -, -, -, -, -, -, -, -⟩ := idx_fixed t
  funext a; apply Fin.ext
  match a with
  | ⟨0, _⟩ => show win0_3.index t (0 : Fin 2) * 1024 + 1 * n.val = n.val; omega
  | ⟨1, _⟩ => show win0_3.index t (1 : Fin 2) * 1024 + 1 * k.val = k.val; omega

/-- Entry `(n, k)` of window 4's block is entry `(n, k)` of argument `main_arg5`. -/
theorem read_w4 (c : Dev nD) (t : Fin cfg0.N) (n k : Fin 1024) :
    iblk m c 4 t (ix2 n k : S1024x1024.Idx) = m ((c : Thread nD τ).loc main_arg5) (ix2 n k) := by
  rw [← V_main_v1 m c]
  show V m c main_v1 (((cfg0.win 4).blk t).view.emb (ix2 n k : S1024x1024.Idx)) = V m c main_v1 (ix2 n k)
  refine congrArg (V m c main_v1) ?_
  obtain ⟨-, -, f4a, f4b, -, -, -, -, -, -, -, -, -, -, -, -, -, -, -, -, -, -, -, -, -, -, -, -, -, -, -, -⟩ := idx_fixed t
  funext a; apply Fin.ext
  match a with
  | ⟨0, _⟩ => show win0_4.index t (0 : Fin 2) * 1024 + 1 * n.val = n.val; omega
  | ⟨1, _⟩ => show win0_4.index t (1 : Fin 2) * 1024 + 1 * k.val = k.val; omega

/-- Entry `(n, k)` of window 5's block is entry `(n, k)` of argument `main_arg7`. -/
theorem read_w5 (c : Dev nD) (t : Fin cfg0.N) (n k : Fin 1024) :
    iblk m c 5 t (ix2 n k : S1024x1024.Idx) = m ((c : Thread nD τ).loc main_arg7) (ix2 n k) := by
  rw [← V_main_v2 m c]
  show V m c main_v2 (((cfg0.win 5).blk t).view.emb (ix2 n k : S1024x1024.Idx)) = V m c main_v2 (ix2 n k)
  refine congrArg (V m c main_v2) ?_
  obtain ⟨-, -, -, -, f5a, f5b, -, -, -, -, -, -, -, -, -, -, -, -, -, -, -, -, -, -, -, -, -, -, -, -, -, -⟩ := idx_fixed t
  funext a; apply Fin.ext
  match a with
  | ⟨0, _⟩ => show win0_5.index t (0 : Fin 2) * 1024 + 1 * n.val = n.val; omega
  | ⟨1, _⟩ => show win0_5.index t (1 : Fin 2) * 1024 + 1 * k.val = k.val; omega

/-- Entry `(n, k)` of window 6's block is entry `(n, k)` of argument `main_arg9`. -/
theorem read_w6 (c : Dev nD) (t : Fin cfg0.N) (n k : Fin 1024) :
    iblk m c 6 t (ix2 n k : S1024x1024.Idx) = m ((c : Thread nD τ).loc main_arg9) (ix2 n k) := by
  rw [← V_main_v3 m c]
  show V m c main_v3 (((cfg0.win 6).blk t).view.emb (ix2 n k : S1024x1024.Idx)) = V m c main_v3 (ix2 n k)
  refine congrArg (V m c main_v3) ?_
  obtain ⟨-, -, -, -, -, -, f6a, f6b, -, -, -, -, -, -, -, -, -, -, -, -, -, -, -, -, -, -, -, -, -, -, -, -⟩ := idx_fixed t
  funext a; apply Fin.ext
  match a with
  | ⟨0, _⟩ => show win0_6.index t (0 : Fin 2) * 1024 + 1 * n.val = n.val; omega
  | ⟨1, _⟩ => show win0_6.index t (1 : Fin 2) * 1024 + 1 * k.val = k.val; omega

/-- Entry `(n, k)` of window 7's block is entry `(n, k)` of argument `main_arg11`. -/
theorem read_w7 (c : Dev nD) (t : Fin cfg0.N) (n k : Fin 1024) :
    iblk m c 7 t (ix2 n k : S1024x1024.Idx) = m ((c : Thread nD τ).loc main_arg11) (ix2 n k) := by
  rw [← V_main_v4 m c]
  show V m c main_v4 (((cfg0.win 7).blk t).view.emb (ix2 n k : S1024x1024.Idx)) = V m c main_v4 (ix2 n k)
  refine congrArg (V m c main_v4) ?_
  obtain ⟨-, -, -, -, -, -, -, -, f7a, f7b, -, -, -, -, -, -, -, -, -, -, -, -, -, -, -, -, -, -, -, -, -, -⟩ := idx_fixed t
  funext a; apply Fin.ext
  match a with
  | ⟨0, _⟩ => show win0_7.index t (0 : Fin 2) * 1024 + 1 * n.val = n.val; omega
  | ⟨1, _⟩ => show win0_7.index t (1 : Fin 2) * 1024 + 1 * k.val = k.val; omega

/-- Entry `(n, k)` of window 8's block is entry `(n, k)` of argument `main_arg13`. -/
theorem read_w8 (c : Dev nD) (t : Fin cfg0.N) (n k : Fin 1024) :
    iblk m c 8 t (ix2 n k : S1024x1024.Idx) = m ((c : Thread nD τ).loc main_arg13) (ix2 n k) := by
  rw [← V_main_v5 m c]
  show V m c main_v5 (((cfg0.win 8).blk t).view.emb (ix2 n k : S1024x1024.Idx)) = V m c main_v5 (ix2 n k)
  refine congrArg (V m c main_v5) ?_
  obtain ⟨-, -, -, -, -, -, -, -, -, -, f8a, f8b, -, -, -, -, -, -, -, -, -, -, -, -, -, -, -, -, -, -, -, -⟩ := idx_fixed t
  funext a; apply Fin.ext
  match a with
  | ⟨0, _⟩ => show win0_8.index t (0 : Fin 2) * 1024 + 1 * n.val = n.val; omega
  | ⟨1, _⟩ => show win0_8.index t (1 : Fin 2) * 1024 + 1 * k.val = k.val; omega

/-- Entry `(n, k)` of window 9's block is entry `(n, k)` of argument `main_arg15`. -/
theorem read_w9 (c : Dev nD) (t : Fin cfg0.N) (n k : Fin 1024) :
    iblk m c 9 t (ix2 n k : S1024x1024.Idx) = m ((c : Thread nD τ).loc main_arg15) (ix2 n k) := by
  rw [← V_main_v6 m c]
  show V m c main_v6 (((cfg0.win 9).blk t).view.emb (ix2 n k : S1024x1024.Idx)) = V m c main_v6 (ix2 n k)
  refine congrArg (V m c main_v6) ?_
  obtain ⟨-, -, -, -, -, -, -, -, -, -, -, -, f9a, f9b, -, -, -, -, -, -, -, -, -, -, -, -, -, -, -, -, -, -⟩ := idx_fixed t
  funext a; apply Fin.ext
  match a with
  | ⟨0, _⟩ => show win0_9.index t (0 : Fin 2) * 1024 + 1 * n.val = n.val; omega
  | ⟨1, _⟩ => show win0_9.index t (1 : Fin 2) * 1024 + 1 * k.val = k.val; omega

/-- Entry `(n, k)` of window 10's block is entry `(n, k)` of argument `main_arg17`. -/
theorem read_w10 (c : Dev nD) (t : Fin cfg0.N) (n k : Fin 1024) :
    iblk m c 10 t (ix2 n k : S1024x1024.Idx) = m ((c : Thread nD τ).loc main_arg17) (ix2 n k) := by
  rw [← V_main_v7 m c]
  show V m c main_v7 (((cfg0.win 10).blk t).view.emb (ix2 n k : S1024x1024.Idx)) = V m c main_v7 (ix2 n k)
  refine congrArg (V m c main_v7) ?_
  obtain ⟨-, -, -, -, -, -, -, -, -, -, -, -, -, -, f10a, f10b, -, -, -, -, -, -, -, -, -, -, -, -, -, -, -, -⟩ := idx_fixed t
  funext a; apply Fin.ext
  match a with
  | ⟨0, _⟩ => show win0_10.index t (0 : Fin 2) * 1024 + 1 * n.val = n.val; omega
  | ⟨1, _⟩ => show win0_10.index t (1 : Fin 2) * 1024 + 1 * k.val = k.val; omega

/-- Entry `(0, q)` of window 11's block is entry `q` of argument `main_arg4`. -/
theorem read_b11 (c : Dev nD) (t : Fin cfg0.N) (q : Fin 1024) :
    iblk m c 11 t (ix2 (0 : Fin 1) q : S1x1024.Idx) = m ((c : Thread nD τ).loc main_arg4) (ix1 q) := by
  rw [← V_main_v8 m c q]
  show V m c main_v8 (((cfg0.win 11).blk t).view.emb (ix2 (0 : Fin 1) q : S1x1024.Idx)) = V m c main_v8 (ix2 (0 : Fin 1) q)
  refine congrArg (V m c main_v8) ?_
  obtain ⟨-, -, -, -, -, -, -, -, -, -, -, -, -, -, -, -, f11a, f11b, -, -, -, -, -, -, -, -, -, -, -, -, -, -⟩ := idx_fixed t
  funext a; apply Fin.ext
  match a with
  | ⟨0, _⟩ => show win0_11.index t (0 : Fin 2) * 1 + 1 * 0 = 0; omega
  | ⟨1, _⟩ => show win0_11.index t (1 : Fin 2) * 1024 + 1 * q.val = q.val; omega

/-- Entry `(0, q)` of window 12's block is entry `q` of argument `main_arg6`. -/
theorem read_b12 (c : Dev nD) (t : Fin cfg0.N) (q : Fin 1024) :
    iblk m c 12 t (ix2 (0 : Fin 1) q : S1x1024.Idx) = m ((c : Thread nD τ).loc main_arg6) (ix1 q) := by
  rw [← V_main_v9 m c q]
  show V m c main_v9 (((cfg0.win 12).blk t).view.emb (ix2 (0 : Fin 1) q : S1x1024.Idx)) = V m c main_v9 (ix2 (0 : Fin 1) q)
  refine congrArg (V m c main_v9) ?_
  obtain ⟨-, -, -, -, -, -, -, -, -, -, -, -, -, -, -, -, -, -, f12a, f12b, -, -, -, -, -, -, -, -, -, -, -, -⟩ := idx_fixed t
  funext a; apply Fin.ext
  match a with
  | ⟨0, _⟩ => show win0_12.index t (0 : Fin 2) * 1 + 1 * 0 = 0; omega
  | ⟨1, _⟩ => show win0_12.index t (1 : Fin 2) * 1024 + 1 * q.val = q.val; omega

/-- Entry `(0, q)` of window 13's block is entry `q` of argument `main_arg8`. -/
theorem read_b13 (c : Dev nD) (t : Fin cfg0.N) (q : Fin 1024) :
    iblk m c 13 t (ix2 (0 : Fin 1) q : S1x1024.Idx) = m ((c : Thread nD τ).loc main_arg8) (ix1 q) := by
  rw [← V_main_v10 m c q]
  show V m c main_v10 (((cfg0.win 13).blk t).view.emb (ix2 (0 : Fin 1) q : S1x1024.Idx)) = V m c main_v10 (ix2 (0 : Fin 1) q)
  refine congrArg (V m c main_v10) ?_
  obtain ⟨-, -, -, -, -, -, -, -, -, -, -, -, -, -, -, -, -, -, -, -, f13a, f13b, -, -, -, -, -, -, -, -, -, -⟩ := idx_fixed t
  funext a; apply Fin.ext
  match a with
  | ⟨0, _⟩ => show win0_13.index t (0 : Fin 2) * 1 + 1 * 0 = 0; omega
  | ⟨1, _⟩ => show win0_13.index t (1 : Fin 2) * 1024 + 1 * q.val = q.val; omega

/-- Entry `(0, q)` of window 14's block is entry `q` of argument `main_arg10`. -/
theorem read_b14 (c : Dev nD) (t : Fin cfg0.N) (q : Fin 1024) :
    iblk m c 14 t (ix2 (0 : Fin 1) q : S1x1024.Idx) = m ((c : Thread nD τ).loc main_arg10) (ix1 q) := by
  rw [← V_main_v11 m c q]
  show V m c main_v11 (((cfg0.win 14).blk t).view.emb (ix2 (0 : Fin 1) q : S1x1024.Idx)) = V m c main_v11 (ix2 (0 : Fin 1) q)
  refine congrArg (V m c main_v11) ?_
  obtain ⟨-, -, -, -, -, -, -, -, -, -, -, -, -, -, -, -, -, -, -, -, -, -, f14a, f14b, -, -, -, -, -, -, -, -⟩ := idx_fixed t
  funext a; apply Fin.ext
  match a with
  | ⟨0, _⟩ => show win0_14.index t (0 : Fin 2) * 1 + 1 * 0 = 0; omega
  | ⟨1, _⟩ => show win0_14.index t (1 : Fin 2) * 1024 + 1 * q.val = q.val; omega

/-- Entry `(0, q)` of window 15's block is entry `q` of argument `main_arg12`. -/
theorem read_b15 (c : Dev nD) (t : Fin cfg0.N) (q : Fin 1024) :
    iblk m c 15 t (ix2 (0 : Fin 1) q : S1x1024.Idx) = m ((c : Thread nD τ).loc main_arg12) (ix1 q) := by
  rw [← V_main_v12 m c q]
  show V m c main_v12 (((cfg0.win 15).blk t).view.emb (ix2 (0 : Fin 1) q : S1x1024.Idx)) = V m c main_v12 (ix2 (0 : Fin 1) q)
  refine congrArg (V m c main_v12) ?_
  obtain ⟨-, -, -, -, -, -, -, -, -, -, -, -, -, -, -, -, -, -, -, -, -, -, -, -, f15a, f15b, -, -, -, -, -, -⟩ := idx_fixed t
  funext a; apply Fin.ext
  match a with
  | ⟨0, _⟩ => show win0_15.index t (0 : Fin 2) * 1 + 1 * 0 = 0; omega
  | ⟨1, _⟩ => show win0_15.index t (1 : Fin 2) * 1024 + 1 * q.val = q.val; omega

/-- Entry `(0, q)` of window 16's block is entry `q` of argument `main_arg14`. -/
theorem read_b16 (c : Dev nD) (t : Fin cfg0.N) (q : Fin 1024) :
    iblk m c 16 t (ix2 (0 : Fin 1) q : S1x1024.Idx) = m ((c : Thread nD τ).loc main_arg14) (ix1 q) := by
  rw [← V_main_v13 m c q]
  show V m c main_v13 (((cfg0.win 16).blk t).view.emb (ix2 (0 : Fin 1) q : S1x1024.Idx)) = V m c main_v13 (ix2 (0 : Fin 1) q)
  refine congrArg (V m c main_v13) ?_
  obtain ⟨-, -, -, -, -, -, -, -, -, -, -, -, -, -, -, -, -, -, -, -, -, -, -, -, -, -, f16a, f16b, -, -, -, -⟩ := idx_fixed t
  funext a; apply Fin.ext
  match a with
  | ⟨0, _⟩ => show win0_16.index t (0 : Fin 2) * 1 + 1 * 0 = 0; omega
  | ⟨1, _⟩ => show win0_16.index t (1 : Fin 2) * 1024 + 1 * q.val = q.val; omega

/-- Entry `(0, q)` of window 17's block is entry `q` of argument `main_arg16`. -/
theorem read_b17 (c : Dev nD) (t : Fin cfg0.N) (q : Fin 1024) :
    iblk m c 17 t (ix2 (0 : Fin 1) q : S1x1024.Idx) = m ((c : Thread nD τ).loc main_arg16) (ix1 q) := by
  rw [← V_main_v14 m c q]
  show V m c main_v14 (((cfg0.win 17).blk t).view.emb (ix2 (0 : Fin 1) q : S1x1024.Idx)) = V m c main_v14 (ix2 (0 : Fin 1) q)
  refine congrArg (V m c main_v14) ?_
  obtain ⟨-, -, -, -, -, -, -, -, -, -, -, -, -, -, -, -, -, -, -, -, -, -, -, -, -, -, -, -, f17a, f17b, -, -⟩ := idx_fixed t
  funext a; apply Fin.ext
  match a with
  | ⟨0, _⟩ => show win0_17.index t (0 : Fin 2) * 1 + 1 * 0 = 0; omega
  | ⟨1, _⟩ => show win0_17.index t (1 : Fin 2) * 1024 + 1 * q.val = q.val; omega

/-- Entry `(0, q)` of window 18's block is entry `q` of argument `main_arg18`. -/
theorem read_b18 (c : Dev nD) (t : Fin cfg0.N) (q : Fin 1024) :
    iblk m c 18 t (ix2 (0 : Fin 1) q : S1x1024.Idx) = m ((c : Thread nD τ).loc main_arg18) (ix1 q) := by
  rw [← V_main_v15 m c q]
  show V m c main_v15 (((cfg0.win 18).blk t).view.emb (ix2 (0 : Fin 1) q : S1x1024.Idx)) = V m c main_v15 (ix2 (0 : Fin 1) q)
  refine congrArg (V m c main_v15) ?_
  obtain ⟨-, -, -, -, -, -, -, -, -, -, -, -, -, -, -, -, -, -, -, -, -, -, -, -, -, -, -, -, -, -, f18a, f18b⟩ := idx_fixed t
  funext a; apply Fin.ext
  match a with
  | ⟨0, _⟩ => show win0_18.index t (0 : Fin 2) * 1 + 1 * 0 = 0; omega
  | ⟨1, _⟩ => show win0_18.index t (1 : Fin 2) * 1024 + 1 * q.val = q.val; omega

/-- Entry `(p, q)` of result window 19's block at point `t` sits at `(256·t + p, q)` of its array. -/
theorem emb19 (t : Fin cfg0.N) (p : Fin 256) (q : Fin 1024) :
    ((cfg0.win 19).blk t).view.emb (ix2 p q : S256x1024.Idx) = (ix2 (brow t p) q : S4096x1024.Idx) := by
  obtain ⟨-, -, -, -, -, -, e0, e1, -, -⟩ := idx_rows t
  funext a; apply Fin.ext
  match a with
  | ⟨0, _⟩ => show win0_19.index t (0 : Fin 2) * 256 + 1 * p.val = t.val * 256 + p.val; omega
  | ⟨1, _⟩ => show win0_19.index t (1 : Fin 2) * 1024 + 1 * q.val = q.val; omega

/-- Entry `(p, q)` of result window 20's block at point `t` sits at `(256·t + p, q)` of its array. -/
theorem emb20 (t : Fin cfg0.N) (p : Fin 256) (q : Fin 1024) :
    ((cfg0.win 20).blk t).view.emb (ix2 p q : S256x1024.Idx) = (ix2 (brow t p) q : S4096x1024.Idx) := by
  obtain ⟨-, -, -, -, -, -, -, -, e0, e1⟩ := idx_rows t
  funext a; apply Fin.ext
  match a with
  | ⟨0, _⟩ => show win0_20.index t (0 : Fin 2) * 256 + 1 * p.val = t.val * 256 + p.val; omega
  | ⟨1, _⟩ => show win0_20.index t (1 : Fin 2) * 1024 + 1 * q.val = q.val; omega

end Cert.Lstm.Win

end
-- ==== Proof.LstmKernelValue.lean ====
/-
  What the kernel's two result arrays hold after the run.

  At grid point `t` the body stores, into the blocks of the two results, the new output and the new cell state of the
  256 rows it holds (`Cert.Lstm.Blk.h_block`, `c_block`); those block entries are entries of the argument arrays
  (`Cert.Lstm.Win`), so what point `t` writes back is block `t` of the whole-array functions `Cert.Lstm.newH` and
  `Cert.Lstm.newC` of the nineteen arguments (`flushed19_eq`, `flushed20_eq`). Row `r` of a result lies in the block of
  point `r / 256`, so the sixteen blocks cover the array (`cover19`, `cover20`), and after the run the two result arrays
  ARE `newH` and `newC` of the arguments (`final19`, `final20`, `run`).
-/
import proofs.«156983_j32598801776688_2_alg».proof.Proof.Gen.KernelIdeal.Value
import proofs.«156983_j32598801776688_2_alg».proof.Proof.LstmKernelBlock
import proofs.«156983_j32598801776688_2_alg».proof.Proof.LstmWindows
import proofs.«156983_j32598801776688_2_alg».proof.Proof.LstmSpec

noncomputable section

namespace Cert.Lstm.KernelValue

open Cert.KernelIdeal Cert.KernelIdeal.Gen Idealize.ShloMosaic Idealize.ShloMosaic.TcCoe Idealize.ShloMosaic.ValueIdx
open Idealize.SL.Sem Cert.Lstm Cert.Lstm.Blk Cert.Lstm.Win
open Idealize.ShloMosaic.Pipeline (Dat)

variable (m : (ℓ : Loc nD τ sig) → Buf (Elt Ideal) ℓ) (ρ : Dev nD → PrngReg)

/-- The new cell state of the argument arrays on core `c`. -/
def outC (c : Dev nD) : S4096x1024.Idx → EReal :=
  newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- The new output of the argument arrays on core `c`. -/
def outH (c : Dev nD) : S4096x1024.Idx → EReal :=
  newH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

theorem hz : (![0, 0] : Fin 2 → Nat) = fun _ => 0 := funext fun a => by fin_cases a <;> rfl

/-! ## Each gate's pre-activation on the block at point `t` is the arrays' -/

theorem pre_i (c : Dev nD) (t : Fin cfg0.N) (p : Fin 256) (q : Fin 1024) :
    preBlk (iblk m c 0 t) (iblk m c 1 t) (iblk m c 3 t) (iblk m c 7 t) (iblk m c 11 t) (iblk m c 15 t) p q
      = pre (m ((c : Thread nD τ).loc main_arg0)) (m ((c : Thread nD τ).loc main_arg1)) (m ((c : Thread nD τ).loc main_arg3)) (m ((c : Thread nD τ).loc main_arg11)) (m ((c : Thread nD τ).loc main_arg4)) (m ((c : Thread nD τ).loc main_arg12)) (brow t p) q :=
  preBlk_eq_pre (iblk m c 0 t) (iblk m c 1 t) (iblk m c 3 t) (iblk m c 7 t) (iblk m c 11 t) (iblk m c 15 t)
    (m ((c : Thread nD τ).loc main_arg0)) (m ((c : Thread nD τ).loc main_arg1)) (m ((c : Thread nD τ).loc main_arg3)) (m ((c : Thread nD τ).loc main_arg11)) (m ((c : Thread nD τ).loc main_arg4)) (m ((c : Thread nD τ).loc main_arg12)) (brow t p) p q
    (read_x m c t p) (read_h m c t p) (read_w3 m c t q) (read_w7 m c t q) (read_b11 m c t q) (read_b15 m c t q)

theorem pre_f (c : Dev nD) (t : Fin cfg0.N) (p : Fin 256) (q : Fin 1024) :
    preBlk (iblk m c 0 t) (iblk m c 1 t) (iblk m c 4 t) (iblk m c 8 t) (iblk m c 12 t) (iblk m c 16 t) p q
      = pre (m ((c : Thread nD τ).loc main_arg0)) (m ((c : Thread nD τ).loc main_arg1)) (m ((c : Thread nD τ).loc main_arg5)) (m ((c : Thread nD τ).loc main_arg13)) (m ((c : Thread nD τ).loc main_arg6)) (m ((c : Thread nD τ).loc main_arg14)) (brow t p) q :=
  preBlk_eq_pre (iblk m c 0 t) (iblk m c 1 t) (iblk m c 4 t) (iblk m c 8 t) (iblk m c 12 t) (iblk m c 16 t)
    (m ((c : Thread nD τ).loc main_arg0)) (m ((c : Thread nD τ).loc main_arg1)) (m ((c : Thread nD τ).loc main_arg5)) (m ((c : Thread nD τ).loc main_arg13)) (m ((c : Thread nD τ).loc main_arg6)) (m ((c : Thread nD τ).loc main_arg14)) (brow t p) p q
    (read_x m c t p) (read_h m c t p) (read_w4 m c t q) (read_w8 m c t q) (read_b12 m c t q) (read_b16 m c t q)

theorem pre_g (c : Dev nD) (t : Fin cfg0.N) (p : Fin 256) (q : Fin 1024) :
    preBlk (iblk m c 0 t) (iblk m c 1 t) (iblk m c 5 t) (iblk m c 9 t) (iblk m c 13 t) (iblk m c 17 t) p q
      = pre (m ((c : Thread nD τ).loc main_arg0)) (m ((c : Thread nD τ).loc main_arg1)) (m ((c : Thread nD τ).loc main_arg7)) (m ((c : Thread nD τ).loc main_arg15)) (m ((c : Thread nD τ).loc main_arg8)) (m ((c : Thread nD τ).loc main_arg16)) (brow t p) q :=
  preBlk_eq_pre (iblk m c 0 t) (iblk m c 1 t) (iblk m c 5 t) (iblk m c 9 t) (iblk m c 13 t) (iblk m c 17 t)
    (m ((c : Thread nD τ).loc main_arg0)) (m ((c : Thread nD τ).loc main_arg1)) (m ((c : Thread nD τ).loc main_arg7)) (m ((c : Thread nD τ).loc main_arg15)) (m ((c : Thread nD τ).loc main_arg8)) (m ((c : Thread nD τ).loc main_arg16)) (brow t p) p q
    (read_x m c t p) (read_h m c t p) (read_w5 m c t q) (read_w9 m c t q) (read_b13 m c t q) (read_b17 m c t q)

theorem pre_o (c : Dev nD) (t : Fin cfg0.N) (p : Fin 256) (q : Fin 1024) :
    preBlk (iblk m c 0 t) (iblk m c 1 t) (iblk m c 6 t) (iblk m c 10 t) (iblk m c 14 t) (iblk m c 18 t) p q
      = pre (m ((c : Thread nD τ).loc main_arg0)) (m ((c : Thread nD τ).loc main_arg1)) (m ((c : Thread nD τ).loc main_arg9)) (m ((c : Thread nD τ).loc main_arg17)) (m ((c : Thread nD τ).loc main_arg10)) (m ((c : Thread nD τ).loc main_arg18)) (brow t p) q :=
  preBlk_eq_pre (iblk m c 0 t) (iblk m c 1 t) (iblk m c 6 t) (iblk m c 10 t) (iblk m c 14 t) (iblk m c 18 t)
    (m ((c : Thread nD τ).loc main_arg0)) (m ((c : Thread nD τ).loc main_arg1)) (m ((c : Thread nD τ).loc main_arg9)) (m ((c : Thread nD τ).loc main_arg17)) (m ((c : Thread nD τ).loc main_arg10)) (m ((c : Thread nD τ).loc main_arg18)) (brow t p) p q
    (read_x m c t p) (read_h m c t p) (read_w6 m c t q) (read_w10 m c t q) (read_b14 m c t q) (read_b18 m c t q)

/-! ## What a point writes back -/

/-- The new cell state the body stores at `(p, q)` of its block at point `t` is `newC` of the arguments at `(256·t + p, q)`. -/
theorem c_point (c : Dev nD) (t : Fin cfg0.N) (p : Fin 256) (q : Fin 1024) :
    cellC (preBlk (iblk m c 0 t) (iblk m c 1 t) (iblk m c 3 t) (iblk m c 7 t) (iblk m c 11 t) (iblk m c 15 t) p q)
        (preBlk (iblk m c 0 t) (iblk m c 1 t) (iblk m c 4 t) (iblk m c 8 t) (iblk m c 12 t) (iblk m c 16 t) p q)
        (preBlk (iblk m c 0 t) (iblk m c 1 t) (iblk m c 5 t) (iblk m c 9 t) (iblk m c 13 t) (iblk m c 17 t) p q)
        (iblk m c 2 t (ix2 p q : S256x1024.Idx))
      = outC m c (ix2 (brow t p) q) := by
  rw [pre_i m c t p q, pre_f m c t p q, pre_g m c t p q, read_c m c t p q]
  rfl

/-- The same for the new output. -/
theorem h_point (c : Dev nD) (t : Fin cfg0.N) (p : Fin 256) (q : Fin 1024) :
    cellH (preBlk (iblk m c 0 t) (iblk m c 1 t) (iblk m c 6 t) (iblk m c 10 t) (iblk m c 14 t) (iblk m c 18 t) p q)
        (cellC (preBlk (iblk m c 0 t) (iblk m c 1 t) (iblk m c 3 t) (iblk m c 7 t) (iblk m c 11 t) (iblk m c 15 t) p q)
          (preBlk (iblk m c 0 t) (iblk m c 1 t) (iblk m c 4 t) (iblk m c 8 t) (iblk m c 12 t) (iblk m c 16 t) p q)
          (preBlk (iblk m c 0 t) (iblk m c 1 t) (iblk m c 5 t) (iblk m c 9 t) (iblk m c 13 t) (iblk m c 17 t) p q)
          (iblk m c 2 t (ix2 p q : S256x1024.Idx)))
      = outH m c (ix2 (brow t p) q) := by
  rw [c_point m c t p q, pre_o m c t p q]
  rfl

/-- WHAT POINT `t` WRITES BACK to the cell-state result is block `t` of `outC`. -/
theorem flushed20_eq (c : Dev nD) (t : Fin cfg0.N) :
    (dats m 0 c).flushed 20 t = ((cfg0.win 20).blk t).view.read (Elt Ideal) (outC m c) := by
  rw [Cert.KernelIdeal.Value.flushed20]
  unfold out0_20
  rw [View.canon_unit_zero hz]
  simp only [View.ld_unit_zero (S := S256x1024) hz, View.ld_unit_zero (S := S1024x1024) hz, View.ld_unit_zero (S := S1x1024) hz]
  funext j
  obtain ⟨p, q, rfl⟩ : ∃ (p : Fin 256) (q : Fin 1024), j = (ix2 p q : S256x1024.Idx) := ⟨j 0, j 1, eq_ix2 j⟩
  refine Eq.trans (c_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q) ?_
  refine Eq.trans (c_point m c t p q) ?_
  exact (congrArg (outC m c) (emb20 t p q)).symm

/-- WHAT POINT `t` WRITES BACK to the output result is block `t` of `outH`. -/
theorem flushed19_eq (c : Dev nD) (t : Fin cfg0.N) :
    (dats m 0 c).flushed 19 t = ((cfg0.win 19).blk t).view.read (Elt Ideal) (outH m c) := by
  rw [Cert.KernelIdeal.Value.flushed19]
  unfold out0_19
  rw [View.canon_unit_zero hz]
  simp only [View.ld_unit_zero (S := S256x1024) hz, View.ld_unit_zero (S := S1024x1024) hz, View.ld_unit_zero (S := S1x1024) hz]
  funext j
  obtain ⟨p, q, rfl⟩ : ∃ (p : Fin 256) (q : Fin 1024), j = (ix2 p q : S256x1024.Idx) := ⟨j 0, j 1, eq_ix2 j⟩
  refine Eq.trans (h_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q) ?_
  refine Eq.trans (h_point m c t p q) ?_
  exact (congrArg (outH m c) (emb19 t p q)).symm

/-! ## The sixteen blocks cover each result -/

/-- An index is in point `t`'s block of window 19 iff each coordinate is in the block's range on its axis. -/
theorem mem_blk19 (t : Fin cfg0.N) (i : S4096x1024.Idx) :
    i ∈ ((cfg0.win 19).blk t).view.set ↔ ∀ a : Fin 2, win0_19.index t a * S256x1024.size a ≤ (i a).val ∧ (i a).val < win0_19.index t a * S256x1024.size a + S256x1024.size a := by
  show i ∈ ((View.whole main_v16_0).slice (win0_19.rect t)).set ↔ _
  rw [View.set_slice_whole, Rect.mem_set_unit]
  exact Iff.rfl

/-- Row `r` lies in the block of point `r / 256`. -/
theorem cover19 (i : S4096x1024.Idx) :
    ∃ t : Fin cfg0.N, (cfg0.win 19).flush t = true ∧ i ∈ ((cfg0.win 19).blk t).view.set := by
  have hi0 : (i 0).val < 4096 := (i 0).isLt
  have hi1 : (i 1).val < 1024 := (i 1).isLt
  have hN : (i 0).val / 256 < cfg0.N := lt_of_lt_of_eq (by omega : (i 0).val / 256 < 16) N_0.symm
  refine ⟨⟨(i 0).val / 256, hN⟩, flush0_19 _, ?_⟩
  rw [mem_blk19]
  obtain ⟨-, -, -, -, -, -, e0, e1, -, -⟩ := idx_rows ⟨(i 0).val / 256, hN⟩
  intro a
  match a with
  | ⟨0, _⟩ =>
    show win0_19.index ⟨(i 0).val / 256, hN⟩ (0 : Fin 2) * 256 ≤ (i 0).val ∧ (i 0).val < win0_19.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_19.index ⟨(i 0).val / 256, hN⟩ (1 : Fin 2) * 1024 ≤ (i 1).val ∧ (i 1).val < win0_19.index ⟨(i 0).val / 256, hN⟩ (1 : Fin 2) * 1024 + 1024
    rw [e1]; omega

/-- An index is in point `t`'s block of window 20 iff each coordinate is in the block's range on its axis. -/
theorem mem_blk20 (t : Fin cfg0.N) (i : S4096x1024.Idx) :
    i ∈ ((cfg0.win 20).blk t).view.set ↔ ∀ a : Fin 2, win0_20.index t a * S256x1024.size a ≤ (i a).val ∧ (i a).val < win0_20.index t a * S256x1024.size a + S256x1024.size a := by
  show i ∈ ((View.whole main_v16_1).slice (win0_20.rect t)).set ↔ _
  rw [View.set_slice_whole, Rect.mem_set_unit]
  exact Iff.rfl

/-- Row `r` lies in the block of point `r / 256`. -/
theorem cover20 (i : S4096x1024.Idx) :
    ∃ t : Fin cfg0.N, (cfg0.win 20).flush t = true ∧ i ∈ ((cfg0.win 20).blk t).view.set := by
  have hi0 : (i 0).val < 4096 := (i 0).isLt
  have hi1 : (i 1).val < 1024 := (i 1).isLt
  have hN : (i 0).val / 256 < cfg0.N := lt_of_lt_of_eq (by omega : (i 0).val / 256 < 16) N_0.symm
  refine ⟨⟨(i 0).val / 256, hN⟩, flush0_20 _, ?_⟩
  rw [mem_blk20]
  obtain ⟨-, -, -, -, -, -, -, -, e0, e1⟩ := idx_rows ⟨(i 0).val / 256, hN⟩
  intro a
  match a with
  | ⟨0, _⟩ =>
    show win0_20.index ⟨(i 0).val / 256, hN⟩ (0 : Fin 2) * 256 ≤ (i 0).val ∧ (i 0).val < win0_20.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_20.index ⟨(i 0).val / 256, hN⟩ (1 : Fin 2) * 1024 ≤ (i 1).val ∧ (i 1).val < win0_20.index ⟨(i 0).val / 256, hN⟩ (1 : Fin 2) * 1024 + 1024
    rw [e1]; omega

/-! ## The arrays after the run -/

/-- After the run the output result is `outH`. -/
theorem final19 (c : Dev nD) : (dats m 0 c).arrAt 19 cfg0.N = outH m c :=
  (dats m 0 c).arrAt_eq_of_cover 19 (outH m c) (fun t _ => flushed19_eq m c t) cover19

/-- After the run the cell-state result is `outC`. -/
theorem final20 (c : Dev nD) : (dats m 0 c).arrAt 20 cfg0.N = outC m c :=
  (dats m 0 c).arrAt_eq_of_cover 20 (outC m c) (fun t _ => flushed20_eq m c t) cover20

/-- Every weakly fair execution of the kernel's program terminates with the two results at `outH` and `outC` of the
    arguments, and the arguments unchanged. -/
theorem run : θ_run defs (onTc (τ := τ) (main (F := Ideal))) ⟨m, fun _ => 0, ρ⟩ fun r => ∀ c : Dev nD,
      r.2.mem ((c : Thread nD τ).loc main_v16_0) = outH m c
      ∧ r.2.mem ((c : Thread nD τ).loc main_v16_1) = outC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final19 m c), (h c).2.1.trans (final20 m c), (h c).2.2⟩)
    (Cert.KernelIdeal.Value.run_blocks m ρ)

end Cert.Lstm.KernelValue

end
-- ==== Proof.LibWords.lean ====
/-
  The two float literals whose values the proof uses, as the extended reals their binary words denote: `1.0` is `1` and
  `3.0` is the real `3`. (The zero word is the library's `Ideal.ofBits_zero_f32`.)
-/
import Idealize.ShloMosaic.PureOps.Ideal
import Idealize.ShloMosaic.PureOps.Ideal.Laws

noncomputable section

namespace Cert.Words

open Idealize.ShloMosaic

/-- The word of `1.0` denotes `1`. -/
theorem one : Ideal.ofBits .f32 0x3F800000#32 = 1 := by
  simp [Ideal.ofBits, Ideal.ieee, -EReal.coe_mul]; norm_num

/-- The word of `3.0` denotes the real `3`. -/
theorem three : Ideal.ofBits .f32 0x40400000#32 = ((3 : ℝ) : EReal) := by
  simp [Ideal.ofBits, Ideal.ieee, -EReal.coe_mul]; norm_num

end Cert.Words

end
-- ==== Proof.LstmReference.lean ====
/-
  The reference program of the LSTM cell, read index by index, is the specification.

  For each of the four gates the program transposes the gate's two weight matrices, multiplies the input rows and the
  hidden rows with them, and adds the two bias rows, each repeated down the batch, in the order
      ((x·Wxᵀ + bx) + h·Whᵀ) + bh.
  At batch row `r` and hidden unit `n` the product `x·Wxᵀ` is `∑ₖ x(r,k)·Wx(n,k)`, because entry `(k, n)` of a
  transpose is entry `(n, k)` of the matrix, and a repeated bias row is `b(n)`; so the value is the specification's
  pre-activation `pre(r, n)` with its four summands regrouped, which addition on the extended reals allows without
  any finiteness. Three gates then pass through `1 / (1 + e^(−z))`, written out with the constant `1.0` twice: that
  quotient is the logistic function by definition. The cell gate passes through `tanh`. The last five operations
  are `σ(pre_f)·c + σ(pre_i)·tanh(pre_g)` and `σ(pre_o)·tanh` of it, entry by entry: the new cell state and the new
  output of the specification.

  Each lemma below reads one stage of the program at the index `(r, n)`; `ref_newC` and `ref_newH` put them together.
-/
import proofs.«156983_j32598801776688_2_alg».proof.Proof.Gen.ReferenceIdeal.Read
import proofs.«156983_j32598801776688_2_alg».proof.Proof.LstmSpec
import proofs.«156983_j32598801776688_2_alg».proof.Proof.LibWords

noncomputable section

open scoped BigOperators

namespace Cert.Lstm.Ref

open Cert.ReferenceIdeal Cert.ReferenceIdeal.Read Idealize.ShloMosaic Idealize.ShloMosaic.ValueIdx

/-! Two indices are equal when their coordinates are: each index equation below is proved coordinate by coordinate. -/

/-! ## The input gate -/

/-- The input row `r` against the transposed weight: entry `(k, n)` of the transpose is entry `(n, k)` of `x3`. -/
theorem dot_ix (x0 : (⟨S4096x1024, .f32⟩ : BufTy).Contents (Elt Ideal)) (x3 : (⟨S1024x1024, .f32⟩ : BufTy).Contents (Elt Ideal)) (r : Fin 4096) (n : Fin 1024) :
    val_main_v1 (F := Ideal) x0 x3 (ix2 r n) = ∑ k : Fin 1024, x0 (ix2 r k) * x3 (ix2 n k) := by
  rw [val_main_v1_apply]
  refine Finset.sum_congr rfl fun k _ => ?_
  rw [val_main_v0_apply]
  exact congrArg₂ (· * ·) (congrArg x0 (by funext a; match a with | ⟨0, _⟩ => rfl | ⟨1, _⟩ => rfl)) (congrArg x3 (by funext a; match a with | ⟨0, _⟩ => rfl | ⟨1, _⟩ => rfl))

/-- The bias row repeated down the batch: at `(r, n)` it is `x4 n`. -/
theorem bias_ix (x4 : (⟨S1024, .f32⟩ : BufTy).Contents (Elt Ideal)) (r : Fin 4096) (n : Fin 1024) :
    val_main_v3 (F := Ideal) x4 (ix2 r n) = x4 (ix1 n) := by
  rw [val_main_v3_apply, val_main_v2_apply]
  exact congrArg x4 (by funext a; match a with | ⟨0, _⟩ => rfl)

/-- The hidden row `r` against the transposed weight `x11`. -/
theorem dot_ih (x1 : (⟨S4096x1024, .f32⟩ : BufTy).Contents (Elt Ideal)) (x11 : (⟨S1024x1024, .f32⟩ : BufTy).Contents (Elt Ideal)) (r : Fin 4096) (n : Fin 1024) :
    val_main_v6 (F := Ideal) x1 x11 (ix2 r n) = ∑ k : Fin 1024, x1 (ix2 r k) * x11 (ix2 n k) := by
  rw [val_main_v6_apply]
  refine Finset.sum_congr rfl fun k _ => ?_
  rw [val_main_v5_apply]
  exact congrArg₂ (· * ·) (congrArg x1 (by funext a; match a with | ⟨0, _⟩ => rfl | ⟨1, _⟩ => rfl)) (congrArg x11 (by funext a; match a with | ⟨0, _⟩ => rfl | ⟨1, _⟩ => rfl))

/-- The hidden side's bias row at `(r, n)` is `x12 n`. -/
theorem bias_ih (x12 : (⟨S1024, .f32⟩ : BufTy).Contents (Elt Ideal)) (r : Fin 4096) (n : Fin 1024) :
    val_main_v9 (F := Ideal) x12 (ix2 r n) = x12 (ix1 n) := by
  rw [val_main_v9_apply, val_main_v8_apply]
  exact congrArg x12 (by funext a; match a with | ⟨0, _⟩ => rfl)

/-- The input gate's pre-activation: the program adds `((x·Wxᵀ + bx) + h·Whᵀ) + bh`, the specification's four
    summands in another grouping. -/
theorem pre_i (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x11 : (⟨S1024x1024, .f32⟩ : BufTy).Contents (Elt Ideal)) (x12 : (⟨S1024, .f32⟩ : BufTy).Contents (Elt Ideal)) (r : Fin 4096) (n : Fin 1024) :
    val_main_v10 (F := Ideal) x0 x1 x3 x4 x11 x12 (ix2 r n) = Cert.Lstm.pre x0 x1 x3 x11 x4 x12 r n := by
  rw [val_main_v10_apply, val_main_v7_apply, val_main_v4_apply, dot_ix, bias_ix, dot_ih, bias_ih]
  exact Cert.Lstm.pre_regroup x0 x1 x3 x11 x4 x12 r n

/-- The input gate: the program spells `1 / (1 + e^(−z))` out with two constants `1.0`, which is the logistic
    function of the pre-activation `z`. -/
theorem sig_i (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x11 : (⟨S1024x1024, .f32⟩ : BufTy).Contents (Elt Ideal)) (x12 : (⟨S1024, .f32⟩ : BufTy).Contents (Elt Ideal)) (r : Fin 4096) (n : Fin 1024) :
    val_main_v16 (F := Ideal) x0 x1 x3 x4 x11 x12 (ix2 r n) = Ideal.logistic (Cert.Lstm.pre x0 x1 x3 x11 x4 x12 r n) := by
  rw [val_main_v16_apply, val_main_v15_apply, val_main_cst_0_apply, val_main_v14_apply, val_main_v13_apply,
    val_main_cst_apply, val_main_v12_apply, val_main_v11_apply, pre_i, Ideal.ofBits_def, Cert.Words.one]
  exact Cert.Lstm.logistic_spelt _

/-! ## The forget gate -/

/-- The input row `r` against the transposed weight: entry `(k, n)` of the transpose is entry `(n, k)` of `x5`. -/
theorem dot_fx (x0 : (⟨S4096x1024, .f32⟩ : BufTy).Contents (Elt Ideal)) (x5 : (⟨S1024x1024, .f32⟩ : BufTy).Contents (Elt Ideal)) (r : Fin 4096) (n : Fin 1024) :
    val_main_v18 (F := Ideal) x0 x5 (ix2 r n) = ∑ k : Fin 1024, x0 (ix2 r k) * x5 (ix2 n k) := by
  rw [val_main_v18_apply]
  refine Finset.sum_congr rfl fun k _ => ?_
  rw [val_main_v17_apply]
  exact congrArg₂ (· * ·) (congrArg x0 (by funext a; match a with | ⟨0, _⟩ => rfl | ⟨1, _⟩ => rfl)) (congrArg x5 (by funext a; match a with | ⟨0, _⟩ => rfl | ⟨1, _⟩ => rfl))

/-- The bias row repeated down the batch: at `(r, n)` it is `x6 n`. -/
theorem bias_fx (x6 : (⟨S1024, .f32⟩ : BufTy).Contents (Elt Ideal)) (r : Fin 4096) (n : Fin 1024) :
    val_main_v20 (F := Ideal) x6 (ix2 r n) = x6 (ix1 n) := by
  rw [val_main_v20_apply, val_main_v19_apply]
  exact congrArg x6 (by funext a; match a with | ⟨0, _⟩ => rfl)

/-- The hidden row `r` against the transposed weight `x13`. -/
theorem dot_fh (x1 : (⟨S4096x1024, .f32⟩ : BufTy).Contents (Elt Ideal)) (x13 : (⟨S1024x1024, .f32⟩ : BufTy).Contents (Elt Ideal)) (r : Fin 4096) (n : Fin 1024) :
    val_main_v23 (F := Ideal) x1 x13 (ix2 r n) = ∑ k : Fin 1024, x1 (ix2 r k) * x13 (ix2 n k) := by
  rw [val_main_v23_apply]
  refine Finset.sum_congr rfl fun k _ => ?_
  rw [val_main_v22_apply]
  exact congrArg₂ (· * ·) (congrArg x1 (by funext a; match a with | ⟨0, _⟩ => rfl | ⟨1, _⟩ => rfl)) (congrArg x13 (by funext a; match a with | ⟨0, _⟩ => rfl | ⟨1, _⟩ => rfl))

/-- The hidden side's bias row at `(r, n)` is `x14 n`. -/
theorem bias_fh (x14 : (⟨S1024, .f32⟩ : BufTy).Contents (Elt Ideal)) (r : Fin 4096) (n : Fin 1024) :
    val_main_v26 (F := Ideal) x14 (ix2 r n) = x14 (ix1 n) := by
  rw [val_main_v26_apply, val_main_v25_apply]
  exact congrArg x14 (by funext a; match a with | ⟨0, _⟩ => rfl)

/-- The forget gate's pre-activation: the program adds `((x·Wxᵀ + bx) + h·Whᵀ) + bh`, the specification's four
    summands in another grouping. -/
theorem pre_f (x0 x1 : (⟨S4096x1024, .f32⟩ : BufTy).Contents (Elt Ideal)) (x5 : (⟨S1024x1024, .f32⟩ : BufTy).Contents (Elt Ideal)) (x6 : (⟨S1024, .f32⟩ : BufTy).Contents (Elt Ideal)) (x13 : (⟨S1024x1024, .f32⟩ : BufTy).Contents (Elt Ideal)) (x14 : (⟨S1024, .f32⟩ : BufTy).Contents (Elt Ideal)) (r : Fin 4096) (n : Fin 1024) :
    val_main_v27 (F := Ideal) x0 x1 x5 x6 x13 x14 (ix2 r n) = Cert.Lstm.pre x0 x1 x5 x13 x6 x14 r n := by
  rw [val_main_v27_apply, val_main_v24_apply, val_main_v21_apply, dot_fx, bias_fx, dot_fh, bias_fh]
  exact Cert.Lstm.pre_regroup x0 x1 x5 x13 x6 x14 r n

/-- The forget gate: the program spells `1 / (1 + e^(−z))` out with two constants `1.0`, which is the logistic
    function of the pre-activation `z`. -/
theorem sig_f (x0 x1 : (⟨S4096x1024, .f32⟩ : BufTy).Contents (Elt Ideal)) (x5 : (⟨S1024x1024, .f32⟩ : BufTy).Contents (Elt Ideal)) (x6 : (⟨S1024, .f32⟩ : BufTy).Contents (Elt Ideal)) (x13 : (⟨S1024x1024, .f32⟩ : BufTy).Contents (Elt Ideal)) (x14 : (⟨S1024, .f32⟩ : BufTy).Contents (Elt Ideal)) (r : Fin 4096) (n : Fin 1024) :
    val_main_v33 (F := Ideal) x0 x1 x5 x6 x13 x14 (ix2 r n) = Ideal.logistic (Cert.Lstm.pre x0 x1 x5 x13 x6 x14 r n) := by
  rw [val_main_v33_apply, val_main_v32_apply, val_main_cst_2_apply, val_main_v31_apply, val_main_v30_apply,
    val_main_cst_1_apply, val_main_v29_apply, val_main_v28_apply, pre_f, Ideal.ofBits_def, Cert.Words.one]
  exact Cert.Lstm.logistic_spelt _

/-! ## The cell gate -/

/-- The input row `r` against the transposed weight: entry `(k, n)` of the transpose is entry `(n, k)` of `x7`. -/
theorem dot_gx (x0 : (⟨S4096x1024, .f32⟩ : BufTy).Contents (Elt Ideal)) (x7 : (⟨S1024x1024, .f32⟩ : BufTy).Contents (Elt Ideal)) (r : Fin 4096) (n : Fin 1024) :
    val_main_v35 (F := Ideal) x0 x7 (ix2 r n) = ∑ k : Fin 1024, x0 (ix2 r k) * x7 (ix2 n k) := by
  rw [val_main_v35_apply]
  refine Finset.sum_congr rfl fun k _ => ?_
  rw [val_main_v34_apply]
  exact congrArg₂ (· * ·) (congrArg x0 (by funext a; match a with | ⟨0, _⟩ => rfl | ⟨1, _⟩ => rfl)) (congrArg x7 (by funext a; match a with | ⟨0, _⟩ => rfl | ⟨1, _⟩ => rfl))

/-- The bias row repeated down the batch: at `(r, n)` it is `x8 n`. -/
theorem bias_gx (x8 : (⟨S1024, .f32⟩ : BufTy).Contents (Elt Ideal)) (r : Fin 4096) (n : Fin 1024) :
    val_main_v37 (F := Ideal) x8 (ix2 r n) = x8 (ix1 n) := by
  rw [val_main_v37_apply, val_main_v36_apply]
  exact congrArg x8 (by funext a; match a with | ⟨0, _⟩ => rfl)

/-- The hidden row `r` against the transposed weight `x15`. -/
theorem dot_gh (x1 : (⟨S4096x1024, .f32⟩ : BufTy).Contents (Elt Ideal)) (x15 : (⟨S1024x1024, .f32⟩ : BufTy).Contents (Elt Ideal)) (r : Fin 4096) (n : Fin 1024) :
    val_main_v40 (F := Ideal) x1 x15 (ix2 r n) = ∑ k : Fin 1024, x1 (ix2 r k) * x15 (ix2 n k) := by
  rw [val_main_v40_apply]
  refine Finset.sum_congr rfl fun k _ => ?_
  rw [val_main_v39_apply]
  exact congrArg₂ (· * ·) (congrArg x1 (by funext a; match a with | ⟨0, _⟩ => rfl | ⟨1, _⟩ => rfl)) (congrArg x15 (by funext a; match a with | ⟨0, _⟩ => rfl | ⟨1, _⟩ => rfl))

/-- The hidden side's bias row at `(r, n)` is `x16 n`. -/
theorem bias_gh (x16 : (⟨S1024, .f32⟩ : BufTy).Contents (Elt Ideal)) (r : Fin 4096) (n : Fin 1024) :
    val_main_v43 (F := Ideal) x16 (ix2 r n) = x16 (ix1 n) := by
  rw [val_main_v43_apply, val_main_v42_apply]
  exact congrArg x16 (by funext a; match a with | ⟨0, _⟩ => rfl)

/-- The cell gate's pre-activation: the program adds `((x·Wxᵀ + bx) + h·Whᵀ) + bh`, the specification's four
    summands in another grouping. -/
theorem pre_g (x0 x1 : (⟨S4096x1024, .f32⟩ : BufTy).Contents (Elt Ideal)) (x7 : (⟨S1024x1024, .f32⟩ : BufTy).Contents (Elt Ideal)) (x8 : (⟨S1024, .f32⟩ : BufTy).Contents (Elt Ideal)) (x15 : (⟨S1024x1024, .f32⟩ : BufTy).Contents (Elt Ideal)) (x16 : (⟨S1024, .f32⟩ : BufTy).Contents (Elt Ideal)) (r : Fin 4096) (n : Fin 1024) :
    val_main_v44 (F := Ideal) x0 x1 x7 x8 x15 x16 (ix2 r n) = Cert.Lstm.pre x0 x1 x7 x15 x8 x16 r n := by
  rw [val_main_v44_apply, val_main_v41_apply, val_main_v38_apply, dot_gx, bias_gx, dot_gh, bias_gh]
  exact Cert.Lstm.pre_regroup x0 x1 x7 x15 x8 x16 r n

/-! ## The output gate -/

/-- The input row `r` against the transposed weight: entry `(k, n)` of the transpose is entry `(n, k)` of `x9`. -/
theorem dot_ox (x0 : (⟨S4096x1024, .f32⟩ : BufTy).Contents (Elt Ideal)) (x9 : (⟨S1024x1024, .f32⟩ : BufTy).Contents (Elt Ideal)) (r : Fin 4096) (n : Fin 1024) :
    val_main_v47 (F := Ideal) x0 x9 (ix2 r n) = ∑ k : Fin 1024, x0 (ix2 r k) * x9 (ix2 n k) := by
  rw [val_main_v47_apply]
  refine Finset.sum_congr rfl fun k _ => ?_
  rw [val_main_v46_apply]
  exact congrArg₂ (· * ·) (congrArg x0 (by funext a; match a with | ⟨0, _⟩ => rfl | ⟨1, _⟩ => rfl)) (congrArg x9 (by funext a; match a with | ⟨0, _⟩ => rfl | ⟨1, _⟩ => rfl))

/-- The bias row repeated down the batch: at `(r, n)` it is `x10 n`. -/
theorem bias_ox (x10 : (⟨S1024, .f32⟩ : BufTy).Contents (Elt Ideal)) (r : Fin 4096) (n : Fin 1024) :
    val_main_v49 (F := Ideal) x10 (ix2 r n) = x10 (ix1 n) := by
  rw [val_main_v49_apply, val_main_v48_apply]
  exact congrArg x10 (by funext a; match a with | ⟨0, _⟩ => rfl)

/-- The hidden row `r` against the transposed weight `x17`. -/
theorem dot_oh (x1 : (⟨S4096x1024, .f32⟩ : BufTy).Contents (Elt Ideal)) (x17 : (⟨S1024x1024, .f32⟩ : BufTy).Contents (Elt Ideal)) (r : Fin 4096) (n : Fin 1024) :
    val_main_v52 (F := Ideal) x1 x17 (ix2 r n) = ∑ k : Fin 1024, x1 (ix2 r k) * x17 (ix2 n k) := by
  rw [val_main_v52_apply]
  refine Finset.sum_congr rfl fun k _ => ?_
  rw [val_main_v51_apply]
  exact congrArg₂ (· * ·) (congrArg x1 (by funext a; match a with | ⟨0, _⟩ => rfl | ⟨1, _⟩ => rfl)) (congrArg x17 (by funext a; match a with | ⟨0, _⟩ => rfl | ⟨1, _⟩ => rfl))

/-- The hidden side's bias row at `(r, n)` is `x18 n`. -/
theorem bias_oh (x18 : (⟨S1024, .f32⟩ : BufTy).Contents (Elt Ideal)) (r : Fin 4096) (n : Fin 1024) :
    val_main_v55 (F := Ideal) x18 (ix2 r n) = x18 (ix1 n) := by
  rw [val_main_v55_apply, val_main_v54_apply]
  exact congrArg x18 (by funext a; match a with | ⟨0, _⟩ => rfl)

/-- The output gate's pre-activation: the program adds `((x·Wxᵀ + bx) + h·Whᵀ) + bh`, the specification's four
    summands in another grouping. -/
theorem pre_o (x0 x1 : (⟨S4096x1024, .f32⟩ : BufTy).Contents (Elt Ideal)) (x9 : (⟨S1024x1024, .f32⟩ : BufTy).Contents (Elt Ideal)) (x10 : (⟨S1024, .f32⟩ : BufTy).Contents (Elt Ideal)) (x17 : (⟨S1024x1024, .f32⟩ : BufTy).Contents (Elt Ideal)) (x18 : (⟨S1024, .f32⟩ : BufTy).Contents (Elt Ideal)) (r : Fin 4096) (n : Fin 1024) :
    val_main_v56 (F := Ideal) x0 x1 x9 x10 x17 x18 (ix2 r n) = Cert.Lstm.pre x0 x1 x9 x17 x10 x18 r n := by
  rw [val_main_v56_apply, val_main_v53_apply, val_main_v50_apply, dot_ox, bias_ox, dot_oh, bias_oh]
  exact Cert.Lstm.pre_regroup x0 x1 x9 x17 x10 x18 r n

/-- The output gate: the program spells `1 / (1 + e^(−z))` out with two constants `1.0`, which is the logistic
    function of the pre-activation `z`. -/
theorem sig_o (x0 x1 : (⟨S4096x1024, .f32⟩ : BufTy).Contents (Elt Ideal)) (x9 : (⟨S1024x1024, .f32⟩ : BufTy).Contents (Elt Ideal)) (x10 : (⟨S1024, .f32⟩ : BufTy).Contents (Elt Ideal)) (x17 : (⟨S1024x1024, .f32⟩ : BufTy).Contents (Elt Ideal)) (x18 : (⟨S1024, .f32⟩ : BufTy).Contents (Elt Ideal)) (r : Fin 4096) (n : Fin 1024) :
    val_main_v62 (F := Ideal) x0 x1 x9 x10 x17 x18 (ix2 r n) = Ideal.logistic (Cert.Lstm.pre x0 x1 x9 x17 x10 x18 r n) := by
  rw [val_main_v62_apply, val_main_v61_apply, val_main_cst_4_apply, val_main_v60_apply, val_main_v59_apply,
    val_main_cst_3_apply, val_main_v58_apply, val_main_v57_apply, pre_o, Ideal.ofBits_def, Cert.Words.one]
  exact Cert.Lstm.logistic_spelt _

/-! ## The cell -/

/-- The new cell state at `(r, n)`: `σ(pre_f)·c + σ(pre_i)·tanh(pre_g)`. -/
theorem newC_ix (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (r : Fin 4096) (n : Fin 1024) :
    val_main_v65 (F := Ideal) x0 x1 x2 x3 x4 x5 x6 x7 x8 x11 x12 x13 x14 x15 x16 (ix2 r n)
      = Cert.Lstm.cellC (Cert.Lstm.pre x0 x1 x3 x11 x4 x12 r n) (Cert.Lstm.pre x0 x1 x5 x13 x6 x14 r n)
          (Cert.Lstm.pre x0 x1 x7 x15 x8 x16 r n) (x2 (ix2 r n)) := by
  rw [val_main_v65_apply, val_main_v63_apply, val_main_v64_apply, val_main_v45_apply, sig_f, sig_i, pre_g]
  rfl

/-- The new output at `(r, n)`: `σ(pre_o)·tanh` of the new cell state. -/
theorem newH_ix (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (r : Fin 4096) (n : Fin 1024) :
    val_main_v67 (F := Ideal) x0 x1 x2 x3 x4 x5 x6 x7 x8 x9 x10 x11 x12 x13 x14 x15 x16 x17 x18 (ix2 r n)
      = Cert.Lstm.cellH (Cert.Lstm.pre x0 x1 x9 x17 x10 x18 r n)
          (Cert.Lstm.cellC (Cert.Lstm.pre x0 x1 x3 x11 x4 x12 r n) (Cert.Lstm.pre x0 x1 x5 x13 x6 x14 r n)
          (Cert.Lstm.pre x0 x1 x7 x15 x8 x16 r n) (x2 (ix2 r n))) := by
  rw [val_main_v67_apply, val_main_v66_apply, sig_o, newC_ix]
  rfl

/-- The program's new cell state is the specification's, as arrays. -/
theorem ref_newC (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    Cert.ReferenceIdeal.Read.val_main_v65 (F := Ideal) x0 x1 x2 x3 x4 x5 x6 x7 x8 x11 x12 x13 x14 x15 x16
      = Cert.Lstm.newC x0 x1 x2 x3 x4 x5 x6 x7 x8 x9 x10 x11 x12 x13 x14 x15 x16 x17 x18 := by
  funext i
  obtain ⟨r, n, rfl⟩ : ∃ (r : Fin 4096) (n : Fin 1024), i = ix2 r n := ⟨i 0, i 1, eq_ix2 i⟩
  exact newC_ix x0 x1 x2 x3 x4 x5 x6 x7 x8 x11 x12 x13 x14 x15 x16 r n

/-- The program's new output is the specification's, as arrays. -/
theorem ref_newH (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    Cert.ReferenceIdeal.Read.val_main_v67 (F := Ideal) x0 x1 x2 x3 x4 x5 x6 x7 x8 x9 x10 x11 x12 x13 x14 x15 x16 x17 x18
      = Cert.Lstm.newH x0 x1 x2 x3 x4 x5 x6 x7 x8 x9 x10 x11 x12 x13 x14 x15 x16 x17 x18 := by
  funext i
  obtain ⟨r, n, rfl⟩ : ∃ (r : Fin 4096) (n : Fin 1024), i = ix2 r n := ⟨i 0, i 1, eq_ix2 i⟩
  exact newH_ix x0 x1 x2 x3 x4 x5 x6 x7 x8 x9 x10 x11 x12 x13 x14 x15 x16 x17 x18 r n

end Cert.Lstm.Ref

end
-- ==== Proof.lean ====
/-
  One step of an LSTM cell: a kernel over sixteen blocks of 256 batch rows against the plain array program.

  Both programs take the input `x`, the hidden state `h`, the cell state `c` (each `[4096, 1024]`) and, for each of the
  four gates, two weight matrices `[1024, 1024]` and two biases `[1024]`. At batch row `r` and hidden unit `n` a gate's
  pre-activation is `∑ₖ x(r,k)·Wx(n,k) + ∑ₖ h(r,k)·Wh(n,k) + bx(n) + bh(n)`, and with `σ(z) = 1/(1 + e^(−z))`
      c'(r,n) = σ(pre_f)·c(r,n) + σ(pre_i)·tanh(pre_g),      h'(r,n) = σ(pre_o)·tanh(c'(r,n)).
  The results are `(h', c')` (`Cert.Lstm.newH`, `Cert.Lstm.newC`: Proof/LstmSpec.lean).

  The kernel narrows `x`, `h` and the weights to a shorter float format before each product, which on the extended reals
  is the identity; it multiplies against the weights' second axis directly, where the array program transposes the
  weights first — the same sum over `k`; it adds a gate's four summands as `((xW + hW) + bx) + bh` where the array
  program adds `((xW + bx) + hW) + bh` — equal because addition on the extended reals is commutative and associative,
  with no summand assumed finite; and it applies the logistic function where the array program writes the quotient
  `1/(1 + e^(−z))` out — the same function by definition, at `±∞` too. So the precondition (finite inputs) is never used.

  The kernel's side (Proof/LstmKernelBlock.lean, LstmWindows.lean, LstmKernelValue.lean): what a grid point stores is the
  cell's formulas on its block, the block's entries are entries of the argument arrays, and the sixteen blocks cover
  the results, so after the run the results are `newH` and `newC` of the arguments. The array program's side
  (Proof/LstmReference.lean): its result terms, read index by index, are `newH` and `newC`. The three frame claims are
  the programs' runs with the values dropped; the idealization rewrote no operation, so `preserves` is trivial.
-/
import proofs.«156983_j32598801776688_2_alg».proof.Defs
import proofs.«156983_j32598801776688_2_alg».proof.Proof.Gen.Kernel
import proofs.«156983_j32598801776688_2_alg».proof.Proof.Gen.Kernel.Skeleton
import proofs.«156983_j32598801776688_2_alg».proof.Proof.Gen.Kernel.Launch
import proofs.«156983_j32598801776688_2_alg».proof.Proof.Gen.Kernel.Points
import proofs.«156983_j32598801776688_2_alg».proof.Proof.Gen.Kernel.Frame
import proofs.«156983_j32598801776688_2_alg».proof.Proof.Gen.KernelIdeal
import proofs.«156983_j32598801776688_2_alg».proof.Proof.Gen.KernelIdeal.Skeleton
import proofs.«156983_j32598801776688_2_alg».proof.Proof.Gen.KernelIdeal.Launch
import proofs.«156983_j32598801776688_2_alg».proof.Proof.Gen.KernelIdeal.Points
import proofs.«156983_j32598801776688_2_alg».proof.Proof.Gen.KernelIdeal.Frame
import proofs.«156983_j32598801776688_2_alg».proof.Proof.Gen.ReferenceIdeal
import proofs.«156983_j32598801776688_2_alg».proof.Proof.Gen.Pre_finite_inputs
import proofs.«156983_j32598801776688_2_alg».proof.Proof.Gen.KernelIdeal.Value
import proofs.«156983_j32598801776688_2_alg».proof.Proof.Gen.ReferenceIdeal.Run
import proofs.«156983_j32598801776688_2_alg».proof.Proof.Gen.ReferenceIdeal.Read
import proofs.«156983_j32598801776688_2_alg».proof.Proof.LstmKernelValue
import proofs.«156983_j32598801776688_2_alg».proof.Proof.LstmReference
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The array program's run, with its two result values dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the nineteen arguments, both programs end with the new output and the new cell state
    of those arguments: the kernel by its blocks (`Cert.Lstm.KernelValue.run`), the array program by its result terms
    read index by index (`Cert.Lstm.Ref.ref_newH`, `ref_newC`). -/
theorem algebraic : Cert.algebraic_KernelIdeal_ReferenceIdeal := by
  intro m ρ m' ρ' _ hagree
  refine ⟨fun c => Cert.Lstm.KernelValue.outH m c, fun c => Cert.Lstm.KernelValue.outC m c,
    Cert.Lstm.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v67_eq _ _ _ _ _ _ _ _ _ _ _ _ _ _ _ _ _ _ _).trans ?_
    refine (Cert.Lstm.Ref.ref_newH _ _ _ _ _ _ _ _ _ _ _ _ _ _ _ _ _ _ _).trans ?_
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]
    rfl
  · refine (Cert.ReferenceIdeal.Read.val_main_v65_eq _ _ _ _ _ _ _ _ _ _ _ _ _ _ _).trans ?_
    refine (Cert.Lstm.Ref.ref_newC _ _ _ _ _ _ _ _ _
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      _ _ _ _ _ _
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))).trans ?_
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
